-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S800000 : Shape := ⟨1, ![800000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S32x4 .f32) (main_arg8 : FVec F S4 .f32) (main_v33 : IVec S_ 1) : IVec S_ 1 :=
  let main_v34 : FVec F S32x4 .f32 := Host.absf main_arg7
  let main_cst_12 : FVec F S_ .f32 := constant S_ .f32 0x7F800000#32
  let main_v35 : FVec F S32x4 .f32 := broadcastInDim S32x4 ![] bcast_S_S32x4 main_cst_12
  let main_v36 : IVec S32x4 1 := cmpf .olt main_v34 main_v35
  let main_c_13 : IVec S_ 1 := constantI S_ 1 1#1
  let main_v37 : IVec S_ 1 := (fun x v => Host.reduce IntOp.andi x v reducesTo_S32x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S64 .f32) (main_arg5 : FVec F S64x32 .f32) (main_arg6 : FVec F S32 .f32) (main_arg7 : FVec F S32x4 .f32) (main_arg8 : FVec F S4 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S64x128 .f32) (main_arg2 : FVec F S128 .f32) (main_arg3 : FVec F S128x64 .f32) (main_arg4 : FVec F S64 .f32) (main_arg5 : FVec F S64x32 .f32) (main_arg6 : FVec F S32 .f32) (main_arg7 : FVec F S32x4 .f32) (main_arg8 : FVec F S4 .f32) (main_arg9 : IVec S800000 32) (main_arg10 : IVec S800000 32) (main_arg11 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S800000 : Shape := ⟨1, ![800000]⟩
abbrev S100000 : Shape := ⟨1, ![100000]⟩
abbrev S_ : Shape := ⟨0, ![]⟩
abbrev S800000x1 : Shape := ⟨2, ![800000, 1]⟩
abbrev S100000x1 : Shape := ⟨2, ![100000, 1]⟩
abbrev S5000x64 : Shape := ⟨2, ![5000, 64]⟩
abbrev S5000x1 : Shape := ⟨2, ![5000, 1]⟩
abbrev S800000x64 : Shape := ⟨2, ![800000, 64]⟩
abbrev S1x128 : Shape := ⟨2, ![1, 128]⟩
abbrev S100000x128 : Shape := ⟨2, ![100000, 128]⟩
abbrev S5000x128 : Shape := ⟨2, ![5000, 128]⟩
abbrev S1x64 : Shape := ⟨2, ![1, 64]⟩
abbrev S100000x32 : Shape := ⟨2, ![100000, 32]⟩
abbrev S5000x32 : Shape := ⟨2, ![5000, 32]⟩
abbrev S800000x32 : Shape := ⟨2, ![800000, 32]⟩
abbrev S1x32 : Shape := ⟨2, ![1, 32]⟩
abbrev S100000x4 : Shape := ⟨2, ![100000, 4]⟩
abbrev S5000x4 : Shape := ⟨2, ![5000, 4]⟩
abbrev S800000x4 : Shape := ⟨2, ![800000, 4]⟩
abbrev S1x4 : Shape := ⟨2, ![1, 4]⟩
abbrev S500x4 : Shape := ⟨2, ![500, 4]⟩
abbrev S500 : Shape := ⟨1, ![500]⟩
abbrev S500x1 : Shape := ⟨2, ![500, 1]⟩

abbrev nBuf : Space → Nat
  | .hbm => 112
  | .vmem => 56
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x4, .f32⟩
  | .hbm, ⟨8, _⟩ => ⟨S4, .f32⟩
  | .hbm, ⟨9, _⟩ => ⟨S800000, .i32⟩
  | .hbm, ⟨10, _⟩ => ⟨S800000, .i32⟩
  | .hbm, ⟨11, _⟩ => ⟨S100000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S100000x64, .f32⟩
  | .hbm, ⟨44, _⟩ => ⟨S800000x1, .i32⟩
  | .hbm, ⟨45, _⟩ => ⟨S100000x64, .f32⟩
  | .hbm, ⟨46, _⟩ => ⟨S1x128, .f32⟩
  | .hbm, ⟨47, _⟩ => ⟨S100000x128, .f32⟩
  | .hbm, ⟨48, _⟩ => ⟨S100000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S100000x64, .f32⟩
  | .hbm, ⟨60, _⟩ => ⟨S800000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x32, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x32, .f32⟩
  | .hbm, ⟨74, _⟩ => ⟨S_, .f32⟩
  | .hbm, ⟨75, _⟩ => ⟨S100000x32, .f32⟩
  | .hbm, ⟨76, _⟩ => ⟨S800000x1, .i32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x4, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x4, .f32⟩
  | .hbm, ⟨90, _⟩ => ⟨S_, .f32⟩
  | .hbm, ⟨91, _⟩ => ⟨S100000x4, .f32⟩
  | .hbm, ⟨92, _⟩ => ⟨S800000x1, .i32⟩
  | .hbm, ⟨93, _⟩ => ⟨S100000x4, .f32⟩
  | .hbm, ⟨94, _⟩ => ⟨S1x4, .f32⟩
  | .hbm, ⟨95, _⟩ => ⟨S100000x4, .f32⟩
  | .hbm, ⟨96, _⟩ => ⟨S_, .f32⟩
  | .hbm, ⟨97, _⟩ => ⟨S500x4, .f32⟩
  | .hbm, ⟨98, _⟩ => ⟨S100000x1, .i32⟩
  | .hbm, ⟨99, _⟩ => ⟨S500x4, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S500, .f32⟩
  | .hbm, ⟨104, _⟩ => ⟨S100000x1, .i32⟩
  | .hbm, ⟨105, _⟩ => ⟨S500, .f32⟩
  | .hbm, ⟨106, _⟩ => ⟨S_, .f32⟩
  | .hbm, ⟨107, _⟩ => ⟨S500, .f32⟩
  | .hbm, ⟨108, _⟩ => ⟨S500, .f32⟩
  | .hbm, ⟨109, _⟩ => ⟨S500x1, .f32⟩
  | .hbm, ⟨110, _⟩ => ⟨S500x4, .f32⟩
  | .hbm, ⟨111, _⟩ => ⟨S500x4, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x32, .f32⟩
  | .local _ .vmem, ⟨31, _⟩ => ⟨S5000x1, .f32⟩
  | .local _ .vmem, ⟨32, _⟩ => ⟨S5000x1, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S32x4, .f32⟩
  | .local _ .vmem, ⟨45, _⟩ => ⟨S5000x1, .f32⟩
  | .local _ .vmem, ⟨46, _⟩ => ⟨S5000x1, .f32⟩
  | .local _ .vmem, ⟨47, _⟩ => ⟨S5000x4, .f32⟩
  | .local _ .vmem, ⟨48, _⟩ => ⟨S5000x4, .f32⟩
  | .local _ .vmem, ⟨49, _⟩ => ⟨S5000x4, .f32⟩
  | .local _ .vmem, ⟨50, _⟩ => ⟨S5000x4, .f32⟩
  | .local _ .vmem, ⟨51, _⟩ => ⟨S5000x1, .f32⟩
  | .local _ .vmem, ⟨52, _⟩ => ⟨S5000x1, .f32⟩
  | .local _ .vmem, ⟨53, _⟩ => ⟨S1x4, .f32⟩
  | .local _ .vmem, ⟨54, _⟩ => ⟨S5000x4, .f32⟩
  | .local _ .vmem, ⟨55, _⟩ => ⟨S5000x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x4 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x4 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x4 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S128_S1x128 : S128.ShapeCasts S1x128
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x4_S32x4_0_0 : ∀ a, (![0, 0] : Fin 2 → Nat) a + S32x4.size a ≤ S32x4.size a
  h_S32x4 : 0 < S32x4.numel
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  bcast_S_S100000x4 : S_.BroadcastsInDim S100000x4 (![] : Fin 0 → Fin S100000x4.rank)
  shapeCasts_S4_S1x4 : S4.ShapeCasts S1x4
  shapeCasts_S5000x4_S5000x4 : S5000x4.ShapeCasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  bcast_S_S500x4 : S_.BroadcastsInDim S500x4 (![] : Fin 0 → Fin S500x4.rank)
  bcast_S100000_S100000x1_0 : S100000.BroadcastsInDim S100000x1 (![0] : Fin 1 → Fin S100000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x4_0_1 : S500x1.BroadcastsInDim S500x4 (![0, 1] : Fin 2 → Fin S500x4.rank)
  scatter_S100000_S800000x1_S800000_n_0_0_1_wf : ScatterDims.WF S100000 S800000x1 S800000 [] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  dot_S5000x32_S32x4_S5000x4_1_0_0_1_n_n_wf : DotDims.WF S5000x32 S32x4 S5000x4 [1] [0] [0] [1] [] []
  gather_S100000x4_S800000x1_S800000x4_1_0_n_n_0_1_14_wf : GatherDims.WF S100000x4 S800000x1 S800000x4 [1] [0] [] [0] [] 1 ![1, 4]
  scatter_S100000x4_S800000x1_S800000x4_1_0_0_1_wf : ScatterDims.WF S100000x4 S800000x1 S800000x4 [1] [0] [0] 1
  scatter_S500x4_S100000x1_S100000x4_1_0_0_1_wf : ScatterDims.WF S500x4 S100000x1 S100000x4 [1] [0] [0] 1
  scatter_S500_S100000x1_S100000_n_0_0_1_wf : ScatterDims.WF S500 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S100000x32.size a
  hwx5_3 : ∀ i : grid5.Coords, EltTy.bits .f32 = 32 ∨ (Rect.block (s := S100000x32) S5000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x4.size a ≤ S32x4.size a
  hwx6_1 : ∀ i : grid6.Coords, EltTy.bits .f32 = 32 ∨ (Rect.block (s := S32x4) S32x4.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x4.size a ≤ S100000x4.size a
  hwx6_3 : ∀ i : grid6.Coords, EltTy.bits .f32 = 32 ∨ (Rect.block (s := S100000x4) S5000x4.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x4.size a ≤ S100000x4.size a
  hwx7_0 : ∀ i : grid7.Coords, EltTy.bits .f32 = 32 ∨ (Rect.block (s := S100000x4) S5000x4.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x4.size a ≤ S1x4.size a
  hwx7_2 : ∀ i : grid7.Coords, EltTy.bits .f32 = 32 ∨ (Rect.block (s := S1x4) S1x4.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x4.size a ≤ S100000x4.size a
  hwx7_3 : ∀ i : grid7.Coords, EltTy.bits .f32 = 32 ∨ (Rect.block (s := S100000x4) S5000x4.size (cc7_transform_3 i) (hinb7_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S5000x32_S32x4_S5000x4_1_0_0_1_n_n : DotDims S5000x32 S32x4 S5000x4 where
  lhsContracting := [1]
  rhsContracting := [0]
  lhsNonContracting := [0]
  rhsNonContracting := [1]
  lhsBatch := []
  rhsBatch := []
  wf := dot_S5000x32_S32x4_S5000x4_1_0_0_1_n_n_wf
def gather_S100000x4_S800000x1_S800000x4_1_0_n_n_0_1_14 : GatherDims S100000x4 S800000x1 S800000x4 where
  offsetDims := [1]
  collapsedSliceDims := [0]
  operandBatchingDims := []
  startIndicesBatchingDims := []
  startIndexMap := [0]
  indexVectorDim := 1
  sliceSizes := ![1, 4]
  wf := gather_S100000x4_S800000x1_S800000x4_1_0_n_n_0_1_14_wf
def scatter_S100000x4_S800000x1_S800000x4_1_0_0_1 : ScatterDims S100000x4 S800000x1 S800000x4 where
  updateWindowDims := [1]
  insertedWindowDims := [0]
  scatterDimsToOperandDims := [0]
  indexVectorDim := 1
  wf := scatter_S100000x4_S800000x1_S800000x4_1_0_0_1_wf
def scatter_S500x4_S100000x1_S100000x4_1_0_0_1 : ScatterDims S500x4 S100000x1 S100000x4 where
  updateWindowDims := [1]
  insertedWindowDims := [0]
  scatterDimsToOperandDims := [0]
  indexVectorDim := 1
  wf := scatter_S500x4_S100000x1_S100000x4_1_0_0_1_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v41) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S5000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S32x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v10) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v54) S5000x4.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v64) S5000x4.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v65) S1x4.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v66) S5000x4.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S800000 : Shape := ⟨1, ![800000]⟩
abbrev S100000 : Shape := ⟨1, ![100000]⟩
abbrev S_ : Shape := ⟨0, ![]⟩
abbrev S800000x1 : Shape := ⟨2, ![800000, 1]⟩
abbrev S100000x1 : Shape := ⟨2, ![100000, 1]⟩
abbrev S800000x64 : Shape := ⟨2, ![800000, 64]⟩
abbrev S100000x128 : Shape := ⟨2, ![100000, 128]⟩
abbrev S1x128 : Shape := ⟨2, ![1, 128]⟩
abbrev S1x64 : Shape := ⟨2, ![1, 64]⟩
abbrev S100000x32 : Shape := ⟨2, ![100000, 32]⟩
abbrev S800000x32 : Shape := ⟨2, ![800000, 32]⟩
abbrev S1x32 : Shape := ⟨2, ![1, 32]⟩
abbrev S100000x4 : Shape := ⟨2, ![100000, 4]⟩
abbrev S800000x4 : Shape := ⟨2, ![800000, 4]⟩
abbrev S1x4 : Shape := ⟨2, ![1, 4]⟩
abbrev S500x4 : Shape := ⟨2, ![500, 4]⟩
abbrev S500 : Shape := ⟨1, ![500]⟩
abbrev S500x1 : Shape := ⟨2, ![500, 1]⟩

abbrev nBuf : Space → Nat
  | .hbm => 147
  | .vmem => 0
  | .smem => 0
  | _ => 0

abbrev hbmTy0_0 (i : Nat) : BufTy := match i % 128 with
  | 0 => ⟨S100000x64, .f32⟩
  | 1 => ⟨S64x128, .f32⟩
  | 2 => ⟨S128, .f32⟩
  | 3 => ⟨S128x64, .f32⟩
  | 4 => ⟨S64, .f32⟩
  | 5 => ⟨S64x32, .f32⟩
  | 6 => ⟨S32, .f32⟩
  | 7 => ⟨S32x4, .f32⟩
  | 8 => ⟨S4, .f32⟩
  | 9 => ⟨S800000, .i32⟩
  | 10 => ⟨S800000, .i32⟩
  | 11 => ⟨S100000, .i32⟩
  | 12 => ⟨S_, .f32⟩
  | 13 => ⟨S800000, .f32⟩
  | 14 => ⟨S_, .f32⟩
  | 15 => ⟨S100000, .f32⟩
  | 16 => ⟨S800000x1, .i32⟩
  | 17 => ⟨S100000, .f32⟩
  | 18 => ⟨S_, .f32⟩
  | 19 => ⟨S100000, .f32⟩
  | 20 => ⟨S800000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S100000x64, .f32⟩
  | 32 => ⟨S100000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .f32⟩
  | 43 => ⟨S100000x64, .f32⟩
  | 44 => ⟨S800000x1, .i32⟩
  | 45 => ⟨S100000x64, .f32⟩
  | 46 => ⟨S100000x1, .f32⟩
  | 47 => ⟨S100000x64, .f32⟩
  | 48 => ⟨S100000x64, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x64, .f32⟩
  | 57 => ⟨S100000x1, .f32⟩
  | 58 => ⟨S100000x64, .f32⟩
  | 59 => ⟨S100000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S100000x64, .f32⟩
  | 71 => ⟨S800000x1, .i32⟩
  | 72 => ⟨S100000x64, .f32⟩
  | 73 => ⟨S100000x1, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x32, .f32⟩
  | 83 => ⟨S100000x1, .f32⟩
  | 84 => ⟨S100000x32, .f32⟩
  | 85 => ⟨S100000x32, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x32, .f32⟩
  | 95 => ⟨S_, .f32⟩
  | 96 => ⟨S100000x32, .f32⟩
  | 97 => ⟨S800000x1, .i32⟩
  | 98 => ⟨S100000x32, .f32⟩
  | 99 => ⟨S100000x1, .f32⟩
  | 100 => ⟨S100000x32, .f32⟩
  | 101 => ⟨S100000x32, .f32⟩
  | 102 => ⟨S1x32, .f32⟩
  | 103 => ⟨S100000x32, .f32⟩
  | 104 => ⟨S100000x32, .f32⟩
  | 105 => ⟨S_, .f32⟩
  | 106 => ⟨S100000x32, .f32⟩
  | 107 => ⟨S100000x32, .f32⟩
  | 108 => ⟨S100000x4, .f32⟩
  | 109 => ⟨S100000x1, .f32⟩
  | 110 => ⟨S100000x4, .f32⟩
  | 111 => ⟨S100000x4, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x4, .f32⟩
  | 121 => ⟨S_, .f32⟩
  | 122 => ⟨S100000x4, .f32⟩
  | 123 => ⟨S800000x1, .i32⟩
  | 124 => ⟨S100000x4, .f32⟩
  | 125 => ⟨S100000x1, .f32⟩
  | 126 => ⟨S100000x4, .f32⟩
  | 127 => ⟨S100000x4, .f32⟩
  | _ => ⟨S100000x64, .f32⟩

abbrev hbmTy0_1 (i : Nat) : BufTy := match i % 128 with
  | 0 => ⟨S1x4, .f32⟩
  | 1 => ⟨S100000x4, .f32⟩
  | 2 => ⟨S100000x4, .f32⟩
  | 3 => ⟨S_, .f32⟩
  | 4 => ⟨S500x4, .f32⟩
  | 5 => ⟨S100000x1, .i32⟩
  | 6 => ⟨S500x4, .f32⟩
  | 7 => ⟨S_, .f32⟩
  | 8 => ⟨S100000, .f32⟩
  | 9 => ⟨S_, .f32⟩
  | 10 => ⟨S500, .f32⟩
  | 11 => ⟨S100000x1, .i32⟩
  | 12 => ⟨S500, .f32⟩
  | 13 => ⟨S_, .f32⟩
  | 14 => ⟨S500, .f32⟩
  | 15 => ⟨S500, .f32⟩
  | 16 => ⟨S500x1, .f32⟩
  | 17 => ⟨S500x4, .f32⟩
  | 18 => ⟨S500x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_9 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_12 : Ref sig .tc := ⟨.hbm, 112, rfl⟩
abbrev main_v80 : Ref sig .tc := ⟨.hbm, 113, rfl⟩
abbrev main_v81 : Ref sig .tc := ⟨.hbm, 114, rfl⟩
abbrev main_c_13 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_14 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_16 : Ref sig .tc := ⟨.hbm, 135, rfl⟩
abbrev main_v99 : Ref sig .tc := ⟨.hbm, 136, rfl⟩
abbrev main_cst_17 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S100000x1_S100000x4_0_1 : S100000x1.BroadcastsInDim S100000x4 (![0, 1] : Fin 2 → Fin S100000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S500x4 : S_.BroadcastsInDim S500x4 (![] : Fin 0 → Fin S500x4.rank)
  bcast_S_S500 : S_.BroadcastsInDim S500 (![] : Fin 0 → Fin S500.rank)
  bcast_S500_S500x1_0 : S500.BroadcastsInDim S500x1 (![0] : Fin 1 → Fin S500x1.rank)
  bcast_S500x1_S500x4_0_1 : S500x1.BroadcastsInDim S500x4 (![0, 1] : Fin 2 → Fin S500x4.rank)
  scatter_S100000_S800000x1_S800000_n_0_0_1_wf : ScatterDims.WF S100000 S800000x1 S800000 [] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  dot_S100000x32_S32x4_S100000x4_1_0_0_1_n_n_wf : DotDims.WF S100000x32 S32x4 S100000x4 [1] [0] [0] [1] [] []
  gather_S100000x4_S800000x1_S800000x4_1_0_n_n_0_1_14_wf : GatherDims.WF S100000x4 S800000x1 S800000x4 [1] [0] [] [0] [] 1 ![1, 4]
  scatter_S100000x4_S800000x1_S800000x4_1_0_0_1_wf : ScatterDims.WF S100000x4 S800000x1 S800000x4 [1] [0] [0] 1
  scatter_S500x4_S100000x1_S100000x4_1_0_0_1_wf : ScatterDims.WF S500x4 S100000x1 S100000x4 [1] [0] [0] 1
  scatter_S500_S100000x1_S100000_n_0_0_1_wf : ScatterDims.WF S500 S100000x1 S100000 [] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf
def gather_S100000x4_S800000x1_S800000x4_1_0_n_n_0_1_14 : GatherDims S100000x4 S800000x1 S800000x4 where
  offsetDims := [1]
  collapsedSliceDims := [0]
  operandBatchingDims := []
  startIndicesBatchingDims := []
  startIndexMap := [0]
  indexVectorDim := 1
  sliceSizes := ![1, 4]
  wf := gather_S100000x4_S800000x1_S800000x4_1_0_n_n_0_1_14_wf
def scatter_S100000x4_S800000x1_S800000x4_1_0_0_1 : ScatterDims S100000x4 S800000x1 S800000x4 where
  updateWindowDims := [1]
  insertedWindowDims := [0]
  scatterDimsToOperandDims := [0]
  indexVectorDim := 1
  wf := scatter_S100000x4_S800000x1_S800000x4_1_0_0_1_wf
def scatter_S500x4_S100000x1_S100000x4_1_0_0_1 : ScatterDims S500x4 S100000x1 S100000x4 where
  updateWindowDims := [1]
  insertedWindowDims := [0]
  scatterDimsToOperandDims := [0]
  indexVectorDim := 1
  wf := scatter_S500x4_S100000x1_S100000x4_1_0_0_1_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf

class Facts : Prop extends Facts₀ where

variable [Facts]
-- ==== Proof.KernelRun.lean ====
/-
  The idealized kernel program's run with its result named.

  The program is fourteen segments: six stretches of host operations and eight regions.  Every weakly fair execution
  terminates, and at the end every buffer that no scope owns holds what the fold of the segments leaves in it from the
  launch memory: a host stretch rewrites the buffers its operations write, a region leaves in each of its arrays what the
  write-backs of its grid points leave.  Read at the result buffer this names the result; read at an argument it gives the
  launch contents back, since nothing writes an argument.
-/
import proofs.«125794_j62526133895431_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the fold's contents there and every argument as
    launched. -/
theorem run : θ_run defs (onTc (τ := τ) (main (F := F))) ⟨m, fun _ => 0, ρ⟩ (fun r => ∀ c : Dev nD,
      r.2.mem ((c.tc : Thread nD τ).loc main_v78) = W14 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v78 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.RunValue

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«125794_j62526133895431_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«125794_j62526133895431_1_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibSlots.lean ====
/-
  Layout operations of a "cells by slots" arrangement, read at an index given by coordinates.

  A flat list of E = n · m entries (m consecutive slots per cell) is reshaped to [n, m] (or, with c columns,
  [E, c] to [n, m, c]) and summed along the slot axis; a per-row vector [a] is made a column [a, 1] and the
  column is spread over b columns, both by a broadcast that names the axes it keeps.  Each lemma reads one
  of these at literal coordinates: entry (p, j) of the reshaped list is entry m p + j of the list; the sum
  along the slot axis at (p, q) is the initial value plus the sum over the slots j of the entries (p, j, q).
-/
import Idealize.ShloMosaic.Lib.ValueLayout
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

open scoped BigOperators

namespace Cert.Lib.Slots

open Idealize.ShloMosaic Idealize.ShloMosaic.ValueIdx

variable {α : Type}

/-! ## A vector as a column, a column over the columns -/

/-- An [a] vector broadcast to an [a, 1] column along axis 0 reads, at (i, u), the vector at i. -/
theorem bcastCol_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An [a, 1] column broadcast to [a, b] along both axes reads, at (p, c), the column's entry in row p. -/
theorem bcastRow_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The flat list as cells by slots -/

/-- [E] reshaped to [n, m] reads, at (p, j), entry m p + j of the list. -/
theorem slots2_apply {n m E : ℕ} (x : (⟨1, ![E]⟩ : Shape).Idx → α)
    (h : (⟨1, ![E]⟩ : Shape).ShapeCasts ⟨2, ![n, m]⟩) (p : Fin n) (j : Fin m) (e : Fin E)
    (he : e.val = m * p.val + j.val) : shapeCast ⟨2, ![n, m]⟩ x h (ix2 p j) = x (ix1 e) :=
  shapeCast_apply x h _ _ (by
    rw [Shape.rowMajor_val_two, Shape.rowMajor_val_one]
    show e.val = p.val * m + j.val
    rw [he, Nat.mul_comm])

/-- [E, c] reshaped to [n, m, c] reads, at (p, j, q), row m p + j of the list, column q. -/
theorem slots3_apply {n m c E : ℕ} (x : (⟨2, ![E, c]⟩ : Shape).Idx → α)
    (h : (⟨2, ![E, c]⟩ : Shape).ShapeCasts ⟨3, ![n, m, c]⟩) (p : Fin n) (j : Fin m) (q : Fin c) (e : Fin E)
    (he : e.val = m * p.val + j.val) : shapeCast ⟨3, ![n, m, c]⟩ x h (ix3 p j q) = x (ix2 e q) :=
  shapeCast_apply x h _ _ (by
    rw [Shape.rowMajor_val_two, Shape.rowMajor_val_three]
    show e.val * c + q.val = (p.val * m + j.val) * c + q.val
    rw [he, Nat.mul_comm m])

/-! ## Sums along the slot axis -/

/-- The indices of [a, b] that a reduction along axis 1 runs over at p are (p, j). -/
theorem lift2 {a b : ℕ} (h : (⟨2, ![a, b]⟩ : Shape).Reduces [1] ⟨1, ![a]⟩) (p : Fin a) (j : Fin b) :
    h.lift (ix1 p) j = ix2 p j := by
  funext d
  apply Fin.ext
  match d with
  | ⟨0, _⟩ => rfl
  | ⟨1, _⟩ => rfl

/-- The indices of [a, b, c] that a reduction along axis 1 runs over at (p, q) are (p, j, q). -/
theorem lift3 {a b c : ℕ} (h : (⟨3, ![a, b, c]⟩ : Shape).Reduces [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an [a, b] array along axis 1, at p: the initial value plus the sum over j of (p, j). -/
theorem hostSum2_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ j : Fin b, x (ix2 p j) := by
  have h : (⟨2, ![a, b]⟩ : Shape).Reduces [1] ⟨1, ![a]⟩ := by
    obtain ⟨hr, hs⟩ := h'
    exact ⟨hr, Nat.one_pos, hs⟩
  refine (Ideal.hostReduceAdd_single h' h x _ (ix1 p)).trans ?_
  refine congrArg (init (Shape.Idx.first hu) + ·) ?_
  show ∑ j : Fin b, x (h.lift (ix1 p) j) = _
  exact Finset.sum_congr rfl fun j _ => by rw [lift2]

/-- The host's sum of an [a, b, c] array along axis 1, at (p, q): the initial value plus the sum over j of (p, j, q). -/
theorem hostSum3_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (hu : 0 < u.numel) (p : Fin a) (q : Fin c) :
    Host.reduceAdd x init h' hu (ix2 p q) = init (Shape.Idx.first hu) + ∑ j : Fin b, x (ix3 p j q) := by
  have h : (⟨3, ![a, b, c]⟩ : Shape).Reduces [1] ⟨2, ![a, c]⟩ := by
    obtain ⟨hr, hs⟩ := h'
    exact ⟨hr, Nat.succ_pos _, hs⟩
  refine (Ideal.hostReduceAdd_single h' h x _ (ix2 p q)).trans ?_
  refine congrArg (init (Shape.Idx.first hu) + ·) ?_
  show ∑ j : Fin b, x (h.lift (ix2 p q) j) = _
  exact Finset.sum_congr rfl fun j _ => by rw [lift3]

end Cert.Lib.Slots
-- ==== Proof.LibGraphConv.lean ====
/-
  The dense steps of a graph convolution with symmetric degree normalisation, entry by entry.

  A layer of the network multiplies each node's row by a per-node factor (a column `c`, one entry per row), possibly
  multiplies by a weight matrix, adds a bias row and rectifies.  Five such steps occur, each a function of whole arrays
  whose entry `(r, q)` reads ONE row `r` of the node array, entry `r` of the column, column `q` of the weights and entry
  `q` of the bias:
    • `scaleRows X c`      : `X[r, q] · c[r]`
    • `projScale X W c`    : `(∑ k, X[r, k] · W[k, q]) · c[r]`
    • `affineRows X c B`   : `X[r, q] · c[r] + B[q]`
    • `affineRelu X c B`   : `max (X[r, q] · c[r] + B[q]) 0`
    • `denseRelu X c W B`  : `max ((∑ k, (X[r, k] · c[r]) · W[k, q]) + B[q]) 0`
  Over the extended reals a change of float format is the identity and both matrix products are plain sums, so for
  each step three things hold, with no finiteness asked anywhere (no term is moved across a sum):
    • a kernel body's spelling on a tile of rows (`tile_…`) IS the step on that tile;
    • the host's spelling on the whole array (`host_…`: the factor a vector broadcast to a column and over the columns,
      the bias a vector broadcast to a row and over the rows) IS the step at the vector cast to a column / row;
    • an entry depends on one row only (`…_entry`), which is what lets row tiles compute the step of the whole array.
-/
import proofs.«125794_j62526133895431_1_alg».proof.Proof.LibDenseLayer
import proofs.«125794_j62526133895431_1_alg».proof.Proof.LibColumns
import proofs.«125794_j62526133895431_1_alg».proof.Proof.LibSlots
import Idealize.ShloMosaic.Lib.Pipeline.Value
import Idealize.ShloMosaic.Lib.ValueLayout

noncomputable section

open scoped BigOperators

namespace Cert.GraphConv

open Idealize.ShloMosaic Idealize.ShloMosaic.ValueIdx Cert.Lib.DotCols Cert.Lib.DotColsHost Cert.Lib.Slots Cert.Lib.DenseLayer

variable {n M K N : Nat}

/-! ## The five steps -/

/-- Each row multiplied by its factor. -/
def scaleRows (X : FVec Ideal ⟨2, ![n, N]⟩ .f32) (c : FVec Ideal ⟨2, ![n, 1]⟩ .f32) : FVec Ideal ⟨2, ![n, N]⟩ .f32 :=
  fun i => X i * c (ix2 (n0 := n) (n1 := 1) (i 0) (0 : Fin 1))

/-- The product with the weights, then each row multiplied by its factor. -/
def projScale (X : FVec Ideal ⟨2, ![n, K]⟩ .f32) (W : FVec Ideal ⟨2, ![K, N]⟩ .f32) (c : FVec Ideal ⟨2, ![n, 1]⟩ .f32) :
    FVec Ideal ⟨2, ![n, N]⟩ .f32 :=
  fun i => (∑ k : Fin K, X (ix2 (n0 := n) (n1 := K) (i 0) k) * W (ix2 (n0 := K) (n1 := N) k (i 1)))
    * c (ix2 (n0 := n) (n1 := 1) (i 0) (0 : Fin 1))

/-- Each row multiplied by its factor, plus the bias row. -/
def affineRows (X : FVec Ideal ⟨2, ![n, N]⟩ .f32) (c : FVec Ideal ⟨2, ![n, 1]⟩ .f32) (B : FVec Ideal ⟨2, ![1, N]⟩ .f32) :
    FVec Ideal ⟨2, ![n, N]⟩ .f32 :=
  fun i => X i * c (ix2 (n0 := n) (n1 := 1) (i 0) (0 : Fin 1)) + B (ix2 (n0 := 1) (n1 := N) (0 : Fin 1) (i 1))

/-- The same, rectified. -/
def affineRelu (X : FVec Ideal ⟨2, ![n, N]⟩ .f32) (c : FVec Ideal ⟨2, ![n, 1]⟩ .f32) (B : FVec Ideal ⟨2, ![1, N]⟩ .f32) :
    FVec Ideal ⟨2, ![n, N]⟩ .f32 :=
  fun i => max (affineRows X c B i) (Ideal.ofBits .f32 0x00000000#32)

/-- Each row multiplied by its factor, the product with the weights, plus the bias row, rectified. -/
def denseRelu (X : FVec Ideal ⟨2, ![n, K]⟩ .f32) (c : FVec Ideal ⟨2, ![n, 1]⟩ .f32) (W : FVec Ideal ⟨2, ![K, N]⟩ .f32)
    (B : FVec Ideal ⟨2, ![1, N]⟩ .f32) : FVec Ideal ⟨2, ![n, N]⟩ .f32 :=
  fun i => max ((∑ k : Fin K, (X (ix2 (n0 := n) (n1 := K) (i 0) k) * c (ix2 (n0 := n) (n1 := 1) (i 0) (0 : Fin 1)))
        * W (ix2 (n0 := K) (n1 := N) k (i 1)))
      + B (ix2 (n0 := 1) (n1 := N) (0 : Fin 1) (i 1))) (Ideal.ofBits .f32 0x00000000#32)

theorem scaleRows_apply (X : FVec Ideal ⟨2, ![n, N]⟩ .f32) (c : FVec Ideal ⟨2, ![n, 1]⟩ .f32) (r : Fin n) (q : Fin N) :
    scaleRows X c (ix2 r q) = X (ix2 r q) * c (ix2 r (0 : Fin 1)) := rfl

theorem projScale_apply (X : FVec Ideal ⟨2, ![n, K]⟩ .f32) (W : FVec Ideal ⟨2, ![K, N]⟩ .f32) (c : FVec Ideal ⟨2, ![n, 1]⟩ .f32)
    (r : Fin n) (q : Fin N) :
    projScale X W c (ix2 r q) = (∑ k : Fin K, X (ix2 r k) * W (ix2 k q)) * c (ix2 r (0 : Fin 1)) := rfl

theorem affineRows_apply (X : FVec Ideal ⟨2, ![n, N]⟩ .f32) (c : FVec Ideal ⟨2, ![n, 1]⟩ .f32) (B : FVec Ideal ⟨2, ![1, N]⟩ .f32)
    (r : Fin n) (q : Fin N) :
    affineRows X c B (ix2 r q) = X (ix2 r q) * c (ix2 r (0 : Fin 1)) + B (ix2 (0 : Fin 1) q) := rfl

theorem affineRelu_apply (X : FVec Ideal ⟨2, ![n, N]⟩ .f32) (c : FVec Ideal ⟨2, ![n, 1]⟩ .f32) (B : FVec Ideal ⟨2, ![1, N]⟩ .f32)
    (r : Fin n) (q : Fin N) :
    affineRelu X c B (ix2 r q)
      = max (X (ix2 r q) * c (ix2 r (0 : Fin 1)) + B (ix2 (0 : Fin 1) q)) (Ideal.ofBits .f32 0x00000000#32) := rfl

theorem denseRelu_apply (X : FVec Ideal ⟨2, ![n, K]⟩ .f32) (c : FVec Ideal ⟨2, ![n, 1]⟩ .f32) (W : FVec Ideal ⟨2, ![K, N]⟩ .f32)
    (B : FVec Ideal ⟨2, ![1, N]⟩ .f32) (r : Fin n) (q : Fin N) :
    denseRelu X c W B (ix2 r q)
      = max ((∑ k : Fin K, (X (ix2 r k) * c (ix2 r (0 : Fin 1))) * W (ix2 k q)) + B (ix2 (0 : Fin 1) q))
          (Ideal.ofBits .f32 0x00000000#32) := rfl

/-! ## An entry reads one row -/

theorem scaleRows_entry (X : FVec Ideal ⟨2, ![n, N]⟩ .f32) (x : FVec Ideal ⟨2, ![M, N]⟩ .f32) (C : FVec Ideal ⟨2, ![n, 1]⟩ .f32)
    (c : FVec Ideal ⟨2, ![M, 1]⟩ .f32) (p : Fin M) (r : Fin n) (q : Fin N)
    (hx : x (ix2 p q) = X (ix2 r q)) (hc : c (ix2 p (0 : Fin 1)) = C (ix2 r (0 : Fin 1))) :
    scaleRows x c (ix2 p q) = scaleRows X C (ix2 r q) := by
  rw [scaleRows_apply, scaleRows_apply, hx, hc]

theorem projScale_entry (X : FVec Ideal ⟨2, ![n, K]⟩ .f32) (x : FVec Ideal ⟨2, ![M, K]⟩ .f32) (W w : FVec Ideal ⟨2, ![K, N]⟩ .f32)
    (C : FVec Ideal ⟨2, ![n, 1]⟩ .f32) (c : FVec Ideal ⟨2, ![M, 1]⟩ .f32) (p : Fin M) (r : Fin n) (q : Fin N)
    (hrow : ∀ k : Fin K, x (ix2 p k) = X (ix2 r k)) (hw : ∀ k : Fin K, w (ix2 k q) = W (ix2 k q))
    (hc : c (ix2 p (0 : Fin 1)) = C (ix2 r (0 : Fin 1))) :
    projScale x w c (ix2 p q) = projScale X W C (ix2 r q) := by
  rw [projScale_apply, projScale_apply, hc]
  exact congrArg (· * C (ix2 r (0 : Fin 1))) (Finset.sum_congr rfl fun k _ => by rw [hrow k, hw k])

theorem affineRows_entry (X : FVec Ideal ⟨2, ![n, N]⟩ .f32) (x : FVec Ideal ⟨2, ![M, N]⟩ .f32) (C : FVec Ideal ⟨2, ![n, 1]⟩ .f32)
    (c : FVec Ideal ⟨2, ![M, 1]⟩ .f32) (B b : FVec Ideal ⟨2, ![1, N]⟩ .f32) (p : Fin M) (r : Fin n) (q : Fin N)
    (hx : x (ix2 p q) = X (ix2 r q)) (hc : c (ix2 p (0 : Fin 1)) = C (ix2 r (0 : Fin 1)))
    (hb : b (ix2 (0 : Fin 1) q) = B (ix2 (0 : Fin 1) q)) :
    affineRows x c b (ix2 p q) = affineRows X C B (ix2 r q) := by
  rw [affineRows_apply, affineRows_apply, hx, hc, hb]

theorem affineRelu_entry (X : FVec Ideal ⟨2, ![n, N]⟩ .f32) (x : FVec Ideal ⟨2, ![M, N]⟩ .f32) (C : FVec Ideal ⟨2, ![n, 1]⟩ .f32)
    (c : FVec Ideal ⟨2, ![M, 1]⟩ .f32) (B b : FVec Ideal ⟨2, ![1, N]⟩ .f32) (p : Fin M) (r : Fin n) (q : Fin N)
    (hx : x (ix2 p q) = X (ix2 r q)) (hc : c (ix2 p (0 : Fin 1)) = C (ix2 r (0 : Fin 1)))
    (hb : b (ix2 (0 : Fin 1) q) = B (ix2 (0 : Fin 1) q)) :
    affineRelu x c b (ix2 p q) = affineRelu X C B (ix2 r q) :=
  congrArg (fun v => max v (Ideal.ofBits .f32 0x00000000#32)) (affineRows_entry X x C c B b p r q hx hc hb)

theorem denseRelu_entry (X : FVec Ideal ⟨2, ![n, K]⟩ .f32) (x : FVec Ideal ⟨2, ![M, K]⟩ .f32) (C : FVec Ideal ⟨2, ![n, 1]⟩ .f32)
    (c : FVec Ideal ⟨2, ![M, 1]⟩ .f32) (W w : FVec Ideal ⟨2, ![K, N]⟩ .f32) (B b : FVec Ideal ⟨2, ![1, N]⟩ .f32)
    (p : Fin M) (r : Fin n) (q : Fin N)
    (hrow : ∀ k : Fin K, x (ix2 p k) = X (ix2 r k)) (hc : c (ix2 p (0 : Fin 1)) = C (ix2 r (0 : Fin 1)))
    (hw : ∀ k : Fin K, w (ix2 k q) = W (ix2 k q)) (hb : b (ix2 (0 : Fin 1) q) = B (ix2 (0 : Fin 1) q)) :
    denseRelu x c w b (ix2 p q) = denseRelu X C W B (ix2 r q) := by
  rw [denseRelu_apply, denseRelu_apply, hc, hb]
  exact congrArg (fun v => max (v + B (ix2 (0 : Fin 1) q)) (Ideal.ofBits .f32 0x00000000#32))
    (Finset.sum_congr rfl fun k _ => by rw [hrow k, hw k])

/-! ## A kernel body's spelling on a tile -/

/-- A column of factors spread over the columns of a tile reads, at `(p, q)`, the factor of row `p`. -/
theorem tile_col_apply (h1 : (⟨2, ![M, 1]⟩ : Shape).ShapeCasts ⟨2, ![M, 1]⟩) (hb : (⟨2, ![M, 1]⟩ : Shape).Broadcasts ⟨2, ![M, N]⟩)
    (c : FVec Ideal ⟨2, ![M, 1]⟩ .f32) (p : Fin M) (q : Fin N) :
    broadcastTo ⟨2, ![M, N]⟩ (shapeCast ⟨2, ![M, 1]⟩ c h1) hb (ix2 p q) = c (ix2 p (0 : Fin 1)) := by
  rw [shapeCast_self, broadcastTo_a1_ab_apply]

/-- A bias row spread over the rows of a tile reads, at `(p, q)`, the bias of column `q`. -/
theorem tile_bias_apply (h2 : (⟨2, ![1, N]⟩ : Shape).ShapeCasts ⟨2, ![1, N]⟩) (hb : (⟨2, ![1, N]⟩ : Shape).Broadcasts ⟨2, ![M, N]⟩)
    (b : FVec Ideal ⟨2, ![1, N]⟩ .f32) (p : Fin M) (q : Fin N) :
    broadcastTo ⟨2, ![M, N]⟩ (shapeCast ⟨2, ![1, N]⟩ b h2) hb (ix2 p q) = b (ix2 (0 : Fin 1) q) := by
  rw [shapeCast_self, broadcastTo_1b_ab_apply]

theorem tile_scaleRows (h1 : (⟨2, ![M, 1]⟩ : Shape).ShapeCasts ⟨2, ![M, 1]⟩) (hb : (⟨2, ![M, 1]⟩ : Shape).Broadcasts ⟨2, ![M, N]⟩)
    (x : FVec Ideal ⟨2, ![M, N]⟩ .f32) (c : FVec Ideal ⟨2, ![M, 1]⟩ .f32) :
    mulf x (broadcastTo ⟨2, ![M, N]⟩ (shapeCast ⟨2, ![M, 1]⟩ c h1) hb) = scaleRows x c := by
  funext i
  obtain ⟨p, q, rfl⟩ : ∃ (p : Fin M) (q : Fin N), i = ix2 p q := ⟨i 0, i 1, eq_ix2 i⟩
  rw [mulf_apply, tile_col_apply, scaleRows_apply]

theorem tile_projScale (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h1 : (⟨2, ![M, 1]⟩ : Shape).ShapeCasts ⟨2, ![M, 1]⟩)
    (hb : (⟨2, ![M, 1]⟩ : Shape).Broadcasts ⟨2, ![M, N]⟩) (hbits : FTy.bits .bf16 < FTy.bits .f32)
    (x : FVec Ideal ⟨2, ![M, K]⟩ .f32) (w : FVec Ideal ⟨2, ![K, N]⟩ .f32) (c : FVec Ideal ⟨2, ![M, 1]⟩ .f32) :
    mulf (matmul D none (truncf .bf16 (shapeCast ⟨2, ![M, K]⟩ x h0) hbits) (truncf .bf16 w hbits)
        (constant ⟨2, ![M, N]⟩ .f32 0x00000000#32))
      (broadcastTo ⟨2, ![M, N]⟩ (shapeCast ⟨2, ![M, 1]⟩ c h1) hb) = projScale x w c := by
  funext i
  obtain ⟨p, q, rfl⟩ : ∃ (p : Fin M) (q : Fin N), i = ix2 p q := ⟨i 0, i 1, eq_ix2 i⟩
  rw [mulf_apply, tile_col_apply, projScale_apply, shapeCast_self]
  refine congrArg (· * c (ix2 p (0 : Fin 1))) ?_
  exact (matmul_cols_apply D hD none (truncf .bf16 x hbits) (truncf .bf16 w hbits) p q).trans
    (Finset.sum_congr rfl fun k _ => rfl)

theorem tile_affineRows (h0 : (⟨2, ![M, N]⟩ : Shape).ShapeCasts ⟨2, ![M, N]⟩) (h1 : (⟨2, ![M, 1]⟩ : Shape).ShapeCasts ⟨2, ![M, 1]⟩)
    (hb : (⟨2, ![M, 1]⟩ : Shape).Broadcasts ⟨2, ![M, N]⟩) (h2 : (⟨2, ![1, N]⟩ : Shape).ShapeCasts ⟨2, ![1, N]⟩)
    (hb2 : (⟨2, ![1, N]⟩ : Shape).Broadcasts ⟨2, ![M, N]⟩)
    (x : FVec Ideal ⟨2, ![M, N]⟩ .f32) (c : FVec Ideal ⟨2, ![M, 1]⟩ .f32) (b : FVec Ideal ⟨2, ![1, N]⟩ .f32) :
    addf (mulf (shapeCast ⟨2, ![M, N]⟩ x h0) (broadcastTo ⟨2, ![M, N]⟩ (shapeCast ⟨2, ![M, 1]⟩ c h1) hb))
      (broadcastTo ⟨2, ![M, N]⟩ (shapeCast ⟨2, ![1, N]⟩ b h2) hb2) = affineRows x c b := by
  funext i
  obtain ⟨p, q, rfl⟩ : ∃ (p : Fin M) (q : Fin N), i = ix2 p q := ⟨i 0, i 1, eq_ix2 i⟩
  rw [addf_apply, mulf_apply, tile_col_apply, tile_bias_apply, shapeCast_self, affineRows_apply]

theorem tile_affineRelu (h0 : (⟨2, ![M, N]⟩ : Shape).ShapeCasts ⟨2, ![M, N]⟩) (h1 : (⟨2, ![M, 1]⟩ : Shape).ShapeCasts ⟨2, ![M, 1]⟩)
    (hb : (⟨2, ![M, 1]⟩ : Shape).Broadcasts ⟨2, ![M, N]⟩) (h2 : (⟨2, ![1, N]⟩ : Shape).ShapeCasts ⟨2, ![1, N]⟩)
    (hb2 : (⟨2, ![1, N]⟩ : Shape).Broadcasts ⟨2, ![M, N]⟩)
    (x : FVec Ideal ⟨2, ![M, N]⟩ .f32) (c : FVec Ideal ⟨2, ![M, 1]⟩ .f32) (b : FVec Ideal ⟨2, ![1, N]⟩ .f32) :
    maximumf (addf (mulf (shapeCast ⟨2, ![M, N]⟩ x h0) (broadcastTo ⟨2, ![M, N]⟩ (shapeCast ⟨2, ![M, 1]⟩ c h1) hb))
        (broadcastTo ⟨2, ![M, N]⟩ (shapeCast ⟨2, ![1, N]⟩ b h2) hb2))
      (broadcast ⟨2, ![M, N]⟩ (Scalar.ofBits (F := Ideal) .f32 0x00000000#32)) = affineRelu x c b := by
  rw [tile_affineRows h0 h1 hb h2 hb2]
  rfl

theorem tile_denseRelu (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h1 : (⟨2, ![M, 1]⟩ : Shape).ShapeCasts ⟨2, ![M, 1]⟩)
    (hb : (⟨2, ![M, 1]⟩ : Shape).Broadcasts ⟨2, ![M, K]⟩) (h2 : (⟨2, ![1, N]⟩ : Shape).ShapeCasts ⟨2, ![1, N]⟩)
    (hb2 : (⟨2, ![1, N]⟩ : Shape).Broadcasts ⟨2, ![M, N]⟩) (hbits : FTy.bits .bf16 < FTy.bits .f32)
    (x : FVec Ideal ⟨2, ![M, K]⟩ .f32) (c : FVec Ideal ⟨2, ![M, 1]⟩ .f32) (w : FVec Ideal ⟨2, ![K, N]⟩ .f32)
    (b : FVec Ideal ⟨2, ![1, N]⟩ .f32) :
    maximumf (addf (matmul D none
          (truncf .bf16 (mulf (shapeCast ⟨2, ![M, K]⟩ x h0) (broadcastTo ⟨2, ![M, K]⟩ (shapeCast ⟨2, ![M, 1]⟩ c h1) hb)) hbits)
          (truncf .bf16 w hbits) (constant ⟨2, ![M, N]⟩ .f32 0x00000000#32))
        (broadcastTo ⟨2, ![M, N]⟩ (shapeCast ⟨2, ![1, N]⟩ b h2) hb2))
      (broadcast ⟨2, ![M, N]⟩ (Scalar.ofBits (F := Ideal) .f32 0x00000000#32)) = denseRelu x c w b := by
  funext i
  obtain ⟨p, q, rfl⟩ : ∃ (p : Fin M) (q : Fin N), i = ix2 p q := ⟨i 0, i 1, eq_ix2 i⟩
  rw [maximumf_apply, addf_apply, tile_bias_apply, denseRelu_apply]
  refine congrArg₂ max (congrArg (· + b (ix2 (0 : Fin 1) q)) ?_) rfl
  refine (matmul_cols_apply D hD none _ _ p q).trans (Finset.sum_congr rfl fun k _ => ?_)
  rw [truncf_apply, truncf_apply, mulf_apply, tile_col_apply, shapeCast_self]

/-! ## The host's spelling on the whole array -/

/-- A vector of factors broadcast to a column and then over the columns reads, at `(r, q)`, its entry `r`. -/
theorem host_col_apply (hb1 : (⟨1, ![n]⟩ : Shape).BroadcastsInDim ⟨2, ![n, 1]⟩ ![0])
    (hb2 : (⟨2, ![n, 1]⟩ : Shape).BroadcastsInDim ⟨2, ![n, N]⟩ ![0, 1]) (v : FVec Ideal ⟨1, ![n]⟩ .f32) (r : Fin n) (q : Fin N) :
    broadcastInDim ⟨2, ![n, N]⟩ ![0, 1] hb2 (broadcastInDim ⟨2, ![n, 1]⟩ ![0] hb1 v) (ix2 r q) = v (ix1 r) := by
  rw [bcastRow_apply, bcastCol_apply]

theorem host_scaleRows (hb1 : (⟨1, ![n]⟩ : Shape).BroadcastsInDim ⟨2, ![n, 1]⟩ ![0])
    (hb2 : (⟨2, ![n, 1]⟩ : Shape).BroadcastsInDim ⟨2, ![n, N]⟩ ![0, 1]) (hsc : (⟨1, ![n]⟩ : Shape).ShapeCasts ⟨2, ![n, 1]⟩)
    (X : FVec Ideal ⟨2, ![n, N]⟩ .f32) (v : FVec Ideal ⟨1, ![n]⟩ .f32) :
    mulf X (broadcastInDim ⟨2, ![n, N]⟩ ![0, 1] hb2 (broadcastInDim ⟨2, ![n, 1]⟩ ![0] hb1 v))
      = scaleRows X (shapeCast ⟨2, ![n, 1]⟩ v hsc) := by
  funext i
  obtain ⟨r, q, rfl⟩ : ∃ (r : Fin n) (q : Fin N), i = ix2 r q := ⟨i 0, i 1, eq_ix2 i⟩
  rw [mulf_apply, host_col_apply, scaleRows_apply, shapeCast_a_a1_apply]

theorem host_projScale (D : DotDims ⟨2, ![n, K]⟩ ⟨2, ![K, N]⟩ ⟨2, ![n, N]⟩) (hD : D = DotDims.plain n K N)
    (hb1 : (⟨1, ![n]⟩ : Shape).BroadcastsInDim ⟨2, ![n, 1]⟩ ![0])
    (hb2 : (⟨2, ![n, 1]⟩ : Shape).BroadcastsInDim ⟨2, ![n, N]⟩ ![0, 1]) (hsc : (⟨1, ![n]⟩ : Shape).ShapeCasts ⟨2, ![n, 1]⟩)
    (X : FVec Ideal ⟨2, ![n, K]⟩ .f32) (W : FVec Ideal ⟨2, ![K, N]⟩ .f32) (v : FVec Ideal ⟨1, ![n]⟩ .f32) :
    mulf (Host.dotGeneral D none X W) (broadcastInDim ⟨2, ![n, N]⟩ ![0, 1] hb2 (broadcastInDim ⟨2, ![n, 1]⟩ ![0] hb1 v))
      = projScale X W (shapeCast ⟨2, ![n, 1]⟩ v hsc) := by
  funext i
  obtain ⟨r, q, rfl⟩ : ∃ (r : Fin n) (q : Fin N), i = ix2 r q := ⟨i 0, i 1, eq_ix2 i⟩
  rw [mulf_apply, host_col_apply, projScale_apply, shapeCast_a_a1_apply]
  exact congrArg (· * v (ix1 r)) (dotGeneral_cols_apply D hD none .single X W r q)

theorem host_affineRows (hb1 : (⟨1, ![n]⟩ : Shape).BroadcastsInDim ⟨2, ![n, 1]⟩ ![0])
    (hb2 : (⟨2, ![n, 1]⟩ : Shape).BroadcastsInDim ⟨2, ![n, N]⟩ ![0, 1]) (hsc : (⟨1, ![n]⟩ : Shape).ShapeCasts ⟨2, ![n, 1]⟩)
    (hc1 : (⟨1, ![N]⟩ : Shape).BroadcastsInDim ⟨2, ![1, N]⟩ ![1])
    (hc2 : (⟨2, ![1, N]⟩ : Shape).BroadcastsInDim ⟨2, ![n, N]⟩ ![0, 1]) (hbc : (⟨1, ![N]⟩ : Shape).ShapeCasts ⟨2, ![1, N]⟩)
    (X : FVec Ideal ⟨2, ![n, N]⟩ .f32) (v : FVec Ideal ⟨1, ![n]⟩ .f32) (b : FVec Ideal ⟨1, ![N]⟩ .f32) :
    addf (mulf X (broadcastInDim ⟨2, ![n, N]⟩ ![0, 1] hb2 (broadcastInDim ⟨2, ![n, 1]⟩ ![0] hb1 v)))
        (broadcastInDim ⟨2, ![n, N]⟩ ![0, 1] hc2 (broadcastInDim ⟨2, ![1, N]⟩ ![1] hc1 b))
      = affineRows X (shapeCast ⟨2, ![n, 1]⟩ v hsc) (shapeCast ⟨2, ![1, N]⟩ b hbc) := by
  funext i
  obtain ⟨r, q, rfl⟩ : ∃ (r : Fin n) (q : Fin N), i = ix2 r q := ⟨i 0, i 1, eq_ix2 i⟩
  rw [addf_apply, mulf_apply, host_col_apply, bias_rows_apply hc1 hc2 b r q, affineRows_apply, shapeCast_a_a1_apply,
    bias_cast_apply hbc b q]

theorem host_affineRelu (hb1 : (⟨1, ![n]⟩ : Shape).BroadcastsInDim ⟨2, ![n, 1]⟩ ![0])
    (hb2 : (⟨2, ![n, 1]⟩ : Shape).BroadcastsInDim ⟨2, ![n, N]⟩ ![0, 1]) (hsc : (⟨1, ![n]⟩ : Shape).ShapeCasts ⟨2, ![n, 1]⟩)
    (hc1 : (⟨1, ![N]⟩ : Shape).BroadcastsInDim ⟨2, ![1, N]⟩ ![1])
    (hc2 : (⟨2, ![1, N]⟩ : Shape).BroadcastsInDim ⟨2, ![n, N]⟩ ![0, 1]) (hbc : (⟨1, ![N]⟩ : Shape).ShapeCasts ⟨2, ![1, N]⟩)
    (hz : (⟨0, ![]⟩ : Shape).BroadcastsInDim ⟨2, ![n, N]⟩ ![])
    (X : FVec Ideal ⟨2, ![n, N]⟩ .f32) (v : FVec Ideal ⟨1, ![n]⟩ .f32) (b : FVec Ideal ⟨1, ![N]⟩ .f32) :
    maximumf (addf (mulf X (broadcastInDim ⟨2, ![n, N]⟩ ![0, 1] hb2 (broadcastInDim ⟨2, ![n, 1]⟩ ![0] hb1 v)))
          (broadcastInDim ⟨2, ![n, N]⟩ ![0, 1] hc2 (broadcastInDim ⟨2, ![1, N]⟩ ![1] hc1 b)))
        (broadcastInDim ⟨2, ![n, N]⟩ ![] hz (constant (F := Ideal) ⟨0, ![]⟩ .f32 0x00000000#32))
      = affineRelu X (shapeCast ⟨2, ![n, 1]⟩ v hsc) (shapeCast ⟨2, ![1, N]⟩ b hbc) := by
  rw [host_affineRows hb1 hb2 hsc hc1 hc2 hbc]
  funext i
  rw [maximumf_apply, broadcastInDim_apply ![] hz _ i ix0 (fun a => a.elim0)]
  rfl

theorem host_denseRelu (D : DotDims ⟨2, ![n, K]⟩ ⟨2, ![K, N]⟩ ⟨2, ![n, N]⟩) (hD : D = DotDims.plain n K N)
    (hb1 : (⟨1, ![n]⟩ : Shape).BroadcastsInDim ⟨2, ![n, 1]⟩ ![0])
    (hb2 : (⟨2, ![n, 1]⟩ : Shape).BroadcastsInDim ⟨2, ![n, K]⟩ ![0, 1]) (hsc : (⟨1, ![n]⟩ : Shape).ShapeCasts ⟨2, ![n, 1]⟩)
    (hc1 : (⟨1, ![N]⟩ : Shape).BroadcastsInDim ⟨2, ![1, N]⟩ ![1])
    (hc2 : (⟨2, ![1, N]⟩ : Shape).BroadcastsInDim ⟨2, ![n, N]⟩ ![0, 1]) (hbc : (⟨1, ![N]⟩ : Shape).ShapeCasts ⟨2, ![1, N]⟩)
    (hz : (⟨0, ![]⟩ : Shape).BroadcastsInDim ⟨2, ![n, N]⟩ ![])
    (X : FVec Ideal ⟨2, ![n, K]⟩ .f32) (v : FVec Ideal ⟨1, ![n]⟩ .f32) (W : FVec Ideal ⟨2, ![K, N]⟩ .f32)
    (b : FVec Ideal ⟨1, ![N]⟩ .f32) :
    maximumf (addf (Host.dotGeneral D none
            (mulf X (broadcastInDim ⟨2, ![n, K]⟩ ![0, 1] hb2 (broadcastInDim ⟨2, ![n, 1]⟩ ![0] hb1 v))) W)
          (broadcastInDim ⟨2, ![n, N]⟩ ![0, 1] hc2 (broadcastInDim ⟨2, ![1, N]⟩ ![1] hc1 b)))
        (broadcastInDim ⟨2, ![n, N]⟩ ![] hz (constant (F := Ideal) ⟨0, ![]⟩ .f32 0x00000000#32))
      = denseRelu X (shapeCast ⟨2, ![n, 1]⟩ v hsc) W (shapeCast ⟨2, ![1, N]⟩ b hbc) := by
  funext i
  obtain ⟨r, q, rfl⟩ : ∃ (r : Fin n) (q : Fin N), i = ix2 r q := ⟨i 0, i 1, eq_ix2 i⟩
  rw [maximumf_apply, addf_apply, bias_rows_apply hc1 hc2 b r q, denseRelu_apply, bias_cast_apply hbc b q,
    broadcastInDim_apply ![] hz _ (ix2 r q) ix0 (fun a => a.elim0)]
  refine congrArg₂ max (congrArg (· + b (ix1 q)) ?_) rfl
  refine (dotGeneral_cols_apply D hD none .single _ W r q).trans (Finset.sum_congr rfl fun k _ => ?_)
  rw [mulf_apply, host_col_apply, shapeCast_a_a1_apply]

end Cert.GraphConv

end
-- ==== Proof.Region0.lean ====
/-
  The first region: every row of the node features multiplied by its out-degree factor.

  The grid has 20 points; point `t` reads rows `5000·t … 5000·t + 4999` of the features and of the factor column and
  writes the same rows of the result.  What point `t` writes back is therefore block `t` of ONE whole-array function of the
  two input arrays — `scaleRows` —, because an entry of that function reads one row only; the 20 blocks tile the
  result, so after the run the result array IS that function of the input arrays as the region found them.
-/
import proofs.«125794_j62526133895431_1_alg».proof.Proof.Gen.KernelIdeal.Frame
import proofs.«125794_j62526133895431_1_alg».proof.Proof.LibGraphConv

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x64 .f32) (x1 : FVec Ideal S5000x1 .f32) : k0_pay1 x0 x1 = scaleRows x0 x1 := by
  unfold k0_pay1
  exact tile_scaleRows _ _ x0 x1

/-- Every window's row-block index at point `t` is `t`, its column-block index 0 (decided over the 20 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of `scaleRows` of the two input arrays. -/
theorem flushed_eq (c : Dev nD) (t : Fin cfg0.N) :
    (dat0 V c).flushed 2 t
      = ((cfg0.win 2).blk t).view.read (Elt Ideal) (scaleRows (n := 100000) (N := 64) (V c main_arg0) (V c main_v10)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  rw [pay_eq]
  obtain ⟨e00, e01, e10, e11, e20, e21⟩ := idx_facts t
  have htN : t.val < 20 := by have h := t.isLt; have hN : cfg0.N = 20 := N_0; omega
  funext j
  obtain ⟨p, q, rfl⟩ : ∃ (p : Fin 5000) (q : Fin 64), j = ix2 p q := ⟨j 0, j 1, eq_ix2 j⟩
  have hr : t.val * 5000 + p.val < 100000 := by have := p.isLt; omega
  show scaleRows (n := 5000) (N := 64) (iblk0 V c 0 t) (iblk0 V c 1 t) (ix2 p q)
    = scaleRows (n := 100000) (N := 64) (V c main_arg0) (V c main_v10) (((cfg0.win 2).blk t).view.emb (ix2 p q))
  have he2 : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [he2]
  refine scaleRows_entry (n := 100000) (M := 5000) (N := 64) (V c main_arg0) (iblk0 V c 0 t) (V c main_v10) (iblk0 V c 1 t)
    p ⟨t.val * 5000 + p.val, hr⟩ q ?_ ?_
  · show V c main_arg0 (((cfg0.win 0).blk t).view.emb (ix2 p q)) = V c main_arg0 (ix2 (⟨t.val * 5000 + p.val, hr⟩ : Fin 100000) q)
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 64 + 1 * q.val = q.val; omega
  · show V c main_v10 (((cfg0.win 1).blk t).view.emb (ix2 p (0 : Fin 1)))
      = V c main_v10 (ix2 (⟨t.val * 5000 + p.val, hr⟩ : Fin 100000) (0 : Fin 1))
    refine congrArg _ ?_
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v15).slice (win0_2.rect t)).set ↔ _
  rw [View.set_slice_whole, Rect.mem_set_unit]
  exact Iff.rfl

/-- The 20 blocks tile the result: row `r` lies in the block of point `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its result array is `scaleRows` of the two input arrays as the region found them. -/
theorem final (c : Dev nD) :
    (dat0 V c).arrAt 2 cfg0.N = scaleRows (n := 100000) (N := 64) (V c main_arg0) (V c main_v10) :=
  (dat0 V c).arrAt_eq_of_cover 2 _ (fun t _ => flushed_eq V c t) cover

end Cert.KernelIdeal.Region0

end
-- ==== Proof.Region1.lean ====
/-
  The first layer's dense region: each row of the aggregated messages multiplied by its in-degree factor, the product
  with the weight matrix, plus the bias row, rectified.

  The grid has 20 points; point `t` reads rows `5000·t … 5000·t + 4999` of the aggregate and of the factor column, the whole
  weight matrix and bias row, and writes the same rows of the result.  An entry of `denseRelu` reads one row of the
  aggregate, one entry of the column, one column of the weights and one entry of the bias row, so what point `t` writes
  back is block `t` of `denseRelu` of the whole arrays; the 20 blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x64 .f32) (x1 : FVec Ideal S5000x1 .f32) (x2 : FVec Ideal S64x128 .f32)
    (x3 : FVec Ideal S1x128 .f32) : k1_pay1 x0 x1 x2 x3 = denseRelu x0 x1 x2 x3 := by
  unfold k1_pay1
  exact tile_denseRelu _ rfl _ _ _ _ _ _ x0 x1 x2 x3

/-- The index maps, decided over the 20 points: a window over row tiles has row-block index `t` at point `t` and
    column-block index 0; a window that is its whole array has block index (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- What point `t` writes back is block `t` of the step of the input arrays. -/
theorem flushed_eq (c : Dev nD) (t : Fin cfg1.N) :
    (dat1 V c).flushed 4 t = ((cfg1.win 4).blk t).view.read (Elt Ideal) (denseRelu (n := 100000) (K := 64) (N := 128) (V c main_v25) (V c main_v14) (V c main_arg1) (V c main_v26)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S64x128) hz, View.ld_unit_zero (S := S1x128) hz, View.ld_unit_zero (S := S5000x128) hz]
  rw [pay_eq]
  obtain ⟨e0, e1, e2, e3, e4, e5, e6, e7, e8, e9⟩ := idx_facts t
  have htN : t.val < 20 := by have h := t.isLt; have hN : cfg1.N = 20 := N_1; omega
  funext j
  obtain ⟨p, q, rfl⟩ : ∃ (p : Fin 5000) (q : Fin 128), j = ix2 p q := ⟨j 0, j 1, eq_ix2 j⟩
  have hr : t.val * 5000 + p.val < 100000 := by have := p.isLt; omega
  show denseRelu (n := 5000) (K := 64) (N := 128) (iblk1 V c 0 t) (iblk1 V c 1 t) (iblk1 V c 2 t) (iblk1 V c 3 t) (ix2 p q)
    = denseRelu (n := 100000) (K := 64) (N := 128) (V c main_v25) (V c main_v14) (V c main_arg1) (V c main_v26) (((cfg1.win 4).blk t).view.emb (ix2 p q))
  have he : ((cfg1.win 4).blk t).view.emb (ix2 p q) = ix2 (⟨t.val * 5000 + p.val, hr⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [he]
  refine denseRelu_entry (n := 100000) (M := 5000) (K := 64) (N := 128) (V c main_v25) (iblk1 V c 0 t) (V c main_v14) (iblk1 V c 1 t)
    (V c main_arg1) (iblk1 V c 2 t) (V c main_v26) (iblk1 V c 3 t) p (⟨t.val * 5000 + p.val, hr⟩ : Fin 100000) q ?_ ?_ ?_ ?_
  · intro k
    show V c main_v25 (((cfg1.win 0).blk t).view.emb (ix2 p k)) = V c main_v25 (ix2 (⟨t.val * 5000 + p.val, hr⟩ : Fin 100000) k)
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v14 (((cfg1.win 1).blk t).view.emb (ix2 p (0 : Fin 1))) = V c main_v14 (ix2 (⟨t.val * 5000 + p.val, hr⟩ : Fin 100000) (0 : Fin 1))
    refine congrArg _ ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · intro k
    show V c main_arg1 (((cfg1.win 2).blk t).view.emb (ix2 k q)) = V c main_arg1 (ix2 k q)
    refine congrArg _ ?_
    funext a; apply Fin.ext
    match a with
    | ⟨0, _⟩ => show win1_2.index t (0 : Fin 2) * 64 + 1 * k.val = k.val; omega
    | ⟨1, _⟩ => show win1_2.index t (1 : Fin 2) * 128 + 1 * q.val = q.val; omega
  · show V c main_v26 (((cfg1.win 3).blk t).view.emb (ix2 (0 : Fin 1) q)) = V c main_v26 (ix2 (0 : Fin 1) q)
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega

/-- An index of the result is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- The 20 blocks tile the result: row `r` lies in the block of point `r / 5000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region its result array is the step of the input arrays as the region found them. -/
theorem final (c : Dev nD) : (dat1 V c).arrAt 4 cfg1.N = denseRelu (n := 100000) (K := 64) (N := 128) (V c main_v25) (V c main_v14) (V c main_arg1) (V c main_v26) :=
  (dat1 V c).arrAt_eq_of_cover 4 _ (fun t _ => flushed_eq V c t) cover

end Cert.KernelIdeal.Region1

end
-- ==== Proof.Region2.lean ====
/-
  A projection region: the node array times a weight matrix, each row then multiplied by its out-degree factor.

  The grid has 20 points; point `t` reads rows `5000·t … 5000·t + 4999` of the node array and of the factor column, the whole
  weight matrix, and writes the same rows of the result.  An entry of `projScale` reads one row of the node array, one
  entry of the column and one column of the weights, so what point `t` writes back is block `t` of `projScale` of the
  whole arrays; the 20 blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x128 .f32) (x1 : FVec Ideal S128x64 .f32) (x2 : FVec Ideal S5000x1 .f32) :
    k2_pay1 x0 x1 x2 = projScale x0 x1 x2 := by
  unfold k2_pay1
  exact tile_projScale _ rfl _ _ _ _ x0 x1 x2

/-- The index maps, decided over the 20 points: a window over row tiles has row-block index `t` at point `t` and
    column-block index 0; a window that is its whole array has block index (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Every row block is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- What point `t` writes back is block `t` of the step of the input arrays. -/
theorem flushed_eq (c : Dev nD) (t : Fin cfg2.N) :
    (dat2 V c).flushed 3 t = ((cfg2.win 3).blk t).view.read (Elt Ideal) (projScale (n := 100000) (K := 128) (N := 64) (V c main_v27) (V c main_arg3) (V c main_v10)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S5000x1) hz, View.ld_unit_zero (S := S5000x64) hz]
  rw [pay_eq]
  obtain ⟨e0, e1, e2, e3, e4, e5, e6, e7⟩ := idx_facts t
  have htN : t.val < 20 := by have h := t.isLt; have hN : cfg2.N = 20 := N_2; omega
  funext j
  obtain ⟨p, q, rfl⟩ : ∃ (p : Fin 5000) (q : Fin 64), j = ix2 p q := ⟨j 0, j 1, eq_ix2 j⟩
  have hr : t.val * 5000 + p.val < 100000 := by have := p.isLt; omega
  show projScale (n := 5000) (K := 128) (N := 64) (iblk2 V c 0 t) (iblk2 V c 1 t) (iblk2 V c 2 t) (ix2 p q)
    = projScale (n := 100000) (K := 128) (N := 64) (V c main_v27) (V c main_arg3) (V c main_v10) (((cfg2.win 3).blk t).view.emb (ix2 p q))
  have he : ((cfg2.win 3).blk t).view.emb (ix2 p q) = ix2 (⟨t.val * 5000 + p.val, hr⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  rw [he]
  refine projScale_entry (n := 100000) (M := 5000) (K := 128) (N := 64) (V c main_v27) (iblk2 V c 0 t) (V c main_arg3) (iblk2 V c 1 t)
    (V c main_v10) (iblk2 V c 2 t) p (⟨t.val * 5000 + p.val, hr⟩ : Fin 100000) q ?_ ?_ ?_
  · intro k
    show V c main_v27 (((cfg2.win 0).blk t).view.emb (ix2 p k)) = V c main_v27 (ix2 (⟨t.val * 5000 + p.val, hr⟩ : Fin 100000) k)
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_arg3 (((cfg2.win 1).blk t).view.emb (ix2 k q)) = V c main_arg3 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  · show V c main_v10 (((cfg2.win 2).blk t).view.emb (ix2 p (0 : Fin 1))) = V c main_v10 (ix2 (⟨t.val * 5000 + p.val, hr⟩ : Fin 100000) (0 : Fin 1))
    refine congrArg _ ?_
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega

/-- An index of the result is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v28).slice (win2_3.rect t)).set ↔ _
  rw [View.set_slice_whole, Rect.mem_set_unit]
  exact Iff.rfl

/-- The 20 blocks tile the result: row `r` lies in the block of point `r / 5000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region its result array is the step of the input arrays as the region found them. -/
theorem final (c : Dev nD) : (dat2 V c).arrAt 3 cfg2.N = projScale (n := 100000) (K := 128) (N := 64) (V c main_v27) (V c main_arg3) (V c main_v10) :=
  (dat2 V c).arrAt_eq_of_cover 3 _ (fun t _ => flushed_eq V c t) cover

end Cert.KernelIdeal.Region2

end
-- ==== Proof.Region3.lean ====
/-
  An aggregation's closing region: each row of the aggregated messages multiplied by its in-degree factor, plus the bias
  row, rectified.

  The grid has 20 points; point `t` reads rows `5000·t … 5000·t + 4999` of the aggregate and of the factor column, the whole
  bias row, and writes the same rows of the result.  An entry of `affineRelu` reads one entry of the aggregate, one of the
  column and one of the bias row, so what point `t` writes back is block `t` of `affineRelu` of the whole arrays; the 20
  blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region3

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x64 .f32) (x1 : FVec Ideal S5000x1 .f32) (x2 : FVec Ideal S1x64 .f32) :
    k3_pay1 x0 x1 x2 = affineRelu x0 x1 x2 := by
  unfold k3_pay1
  exact tile_affineRelu _ _ _ _ _ x0 x1 x2

/-- The index maps, decided over the 20 points: a window over row tiles has row-block index `t` at point `t` and
    column-block index 0; a window that is its whole array has block index (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every row block is some point's. -/
theorem idx_onto : ∀ q0 : Fin 20, ∃ t : Fin cfg3.N, win3_3.index t = ![q0.val, 0] :=
  (by decide +kernel : ∀ q0 : Fin 20, ∃ t : Fin grid3.N, win3_3.index t = ![q0.val, 0])

/-- What point `t` writes back is block `t` of the step of the input arrays. -/
theorem flushed_eq (c : Dev nD) (t : Fin cfg3.N) :
    (dat3 V c).flushed 3 t = ((cfg3.win 3).blk t).view.read (Elt Ideal) (affineRelu (n := 100000) (N := 64) (V c main_v38) (V c main_v14) (V c main_v39)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  rw [pay_eq]
  obtain ⟨e0, e1, e2, e3, e4, e5, e6, e7⟩ := idx_facts t
  have htN : t.val < 20 := by have h := t.isLt; have hN : cfg3.N = 20 := N_3; omega
  funext j
  obtain ⟨p, q, rfl⟩ : ∃ (p : Fin 5000) (q : Fin 64), j = ix2 p q := ⟨j 0, j 1, eq_ix2 j⟩
  have hr : t.val * 5000 + p.val < 100000 := by have := p.isLt; omega
  show affineRelu (n := 5000) (N := 64) (iblk3 V c 0 t) (iblk3 V c 1 t) (iblk3 V c 2 t) (ix2 p q)
    = affineRelu (n := 100000) (N := 64) (V c main_v38) (V c main_v14) (V c main_v39) (((cfg3.win 3).blk t).view.emb (ix2 p q))
  have he : ((cfg3.win 3).blk t).view.emb (ix2 p q) = ix2 (⟨t.val * 5000 + p.val, hr⟩ : Fin 100000) q := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  rw [he]
  refine affineRelu_entry (n := 100000) (M := 5000) (N := 64) (V c main_v38) (iblk3 V c 0 t) (V c main_v14) (iblk3 V c 1 t)
    (V c main_v39) (iblk3 V c 2 t) p (⟨t.val * 5000 + p.val, hr⟩ : Fin 100000) q ?_ ?_ ?_
  · show V c main_v38 (((cfg3.win 0).blk t).view.emb (ix2 p q)) = V c main_v38 (ix2 (⟨t.val * 5000 + p.val, hr⟩ : Fin 100000) q)
    refine congrArg _ ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  · show V c main_v14 (((cfg3.win 1).blk t).view.emb (ix2 p (0 : Fin 1))) = V c main_v14 (ix2 (⟨t.val * 5000 + p.val, hr⟩ : Fin 100000) (0 : Fin 1))
    refine congrArg _ ?_
    funext a; apply Fin.ext
    match a with
    | ⟨0, _⟩ => show win3_1.index t (0 : Fin 2) * 5000 + 1 * p.val = t.val * 5000 + p.val; omega
    | ⟨1, _⟩ => show win3_1.index t (1 : Fin 2) * 1 + 1 * 0 = 0; omega
  · show V c main_v39 (((cfg3.win 2).blk t).view.emb (ix2 (0 : Fin 1) q)) = V c main_v39 (ix2 (0 : Fin 1) q)
    refine congrArg _ ?_
    funext a; apply Fin.ext
    match a with
    | ⟨0, _⟩ => show win3_2.index t (0 : Fin 2) * 1 + 1 * 0 = 0; omega
    | ⟨1, _⟩ => show win3_2.index t (1 : Fin 2) * 64 + 1 * q.val = q.val; omega

/-- An index of the result is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v40).slice (win3_3.rect t)).set ↔ _
  rw [View.set_slice_whole, Rect.mem_set_unit]
  exact Iff.rfl

/-- The 20 blocks tile the result: row `r` lies in the block of point `r / 5000`. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the region its result array is the step of the input arrays as the region found them. -/
theorem final (c : Dev nD) : (dat3 V c).arrAt 3 cfg3.N = affineRelu (n := 100000) (N := 64) (V c main_v38) (V c main_v14) (V c main_v39) :=
  (dat3 V c).arrAt_eq_of_cover 3 _ (fun t _ => flushed_eq V c t) cover

end Cert.KernelIdeal.Region3

end
-- ==== Proof.Region4.lean ====
/-
  A projection region: the node array times a weight matrix, each row then multiplied by its out-degree factor.

  The grid has 20 points; point `t` reads rows `5000·t … 5000·t + 4999` of the node array and of the factor column, the whole
  weight matrix, and writes the same rows of the result.  An entry of `projScale` reads one row of the node array, one
  entry of the column and one column of the weights, so what point `t` writes back is block `t` of `projScale` of the
  whole arrays; the 20 blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region4

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x64 .f32) (x1 : FVec Ideal S64x32 .f32) (x2 : FVec Ideal S5000x1 .f32) :
    k4_pay1 x0 x1 x2 = projScale x0 x1 x2 := by
  unfold k4_pay1
  exact tile_projScale _ rfl _ _ _ _ x0 x1 x2

/-- The index maps, decided over the 20 points: a window over row tiles has row-block index `t` at point `t` and
    column-block index 0; a window that is its whole array has block index (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Every row block is some point's. -/
theorem idx_onto : ∀ q0 : Fin 20, ∃ t : Fin cfg4.N, win4_3.index t = ![q0.val, 0] :=
  (by decide +kernel : ∀ q0 : Fin 20, ∃ t : Fin grid4.N, win4_3.index t = ![q0.val, 0])

/-- What point `t` writes back is block `t` of the step of the input arrays. -/
theorem flushed_eq (c : Dev nD) (t : Fin cfg4.N) :
    (dat4 V c).flushed 3 t = ((cfg4.win 3).blk t).view.read (Elt Ideal) (projScale (n := 100000) (K := 64) (N := 32) (V c main_v40) (V c main_arg5) (V c main_v10)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x32) hz, View.ld_unit_zero (S := S5000x1) hz, View.ld_unit_zero (S := S5000x32) hz]
  rw [pay_eq]
  obtain ⟨e0, e1, e2, e3, e4, e5, e6, e7⟩ := idx_facts t
  have htN : t.val < 20 := by have h := t.isLt; have hN : cfg4.N = 20 := N_4; omega
  funext j
  obtain ⟨p, q, rfl⟩ : ∃ (p : Fin 5000) (q : Fin 32), j = ix2 p q := ⟨j 0, j 1, eq_ix2 j⟩
  have hr : t.val * 5000 + p.val < 100000 := by have := p.isLt; omega
  show projScale (n := 5000) (K := 64) (N := 32) (iblk4 V c 0 t) (iblk4 V c 1 t) (iblk4 V c 2 t) (ix2 p q)
    = projScale (n := 100000) (K := 64) (N := 32) (V c main_v40) (V c main_arg5) (V c main_v10) (((cfg4.win 3).blk t).view.emb (ix2 p q))
  have he : ((cfg4.win 3).blk t).view.emb (ix2 p q) = ix2 (⟨t.val * 5000 + p.val, hr⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 32 + 1 * q.val = q.val; omega
  rw [he]
  refine projScale_entry (n := 100000) (M := 5000) (K := 64) (N := 32) (V c main_v40) (iblk4 V c 0 t) (V c main_arg5) (iblk4 V c 1 t)
    (V c main_v10) (iblk4 V c 2 t) p (⟨t.val * 5000 + p.val, hr⟩ : Fin 100000) q ?_ ?_ ?_
  · intro k
    show V c main_v40 (((cfg4.win 0).blk t).view.emb (ix2 p k)) = V c main_v40 (ix2 (⟨t.val * 5000 + p.val, hr⟩ : Fin 100000) k)
    refine congrArg _ ?_
    funext a; apply Fin.ext
    match a with
    | ⟨0, _⟩ => show win4_0.index t (0 : Fin 2) * 5000 + 1 * p.val = t.val * 5000 + p.val; omega
    | ⟨1, _⟩ => show win4_0.index t (1 : Fin 2) * 64 + 1 * k.val = k.val; omega
  · intro k
    show V c main_arg5 (((cfg4.win 1).blk t).view.emb (ix2 k q)) = V c main_arg5 (ix2 k q)
    refine congrArg _ ?_
    funext a; apply Fin.ext
    match a with
    | ⟨0, _⟩ => show win4_1.index t (0 : Fin 2) * 64 + 1 * k.val = k.val; omega
    | ⟨1, _⟩ => show win4_1.index t (1 : Fin 2) * 32 + 1 * q.val = q.val; omega
  · show V c main_v10 (((cfg4.win 2).blk t).view.emb (ix2 p (0 : Fin 1))) = V c main_v10 (ix2 (⟨t.val * 5000 + p.val, hr⟩ : Fin 100000) (0 : Fin 1))
    refine congrArg _ ?_
    funext a; apply Fin.ext
    match a with
    | ⟨0, _⟩ => show win4_2.index t (0 : Fin 2) * 5000 + 1 * p.val = t.val * 5000 + p.val; omega
    | ⟨1, _⟩ => show win4_2.index t (1 : Fin 2) * 1 + 1 * 0 = 0; omega

/-- An index of the result is in point `t`'s block iff each coordinate is in the block's range on its axis. -/
theorem mem_blk (t : Fin cfg4.N) (i : S100000x32.Idx) :
    i ∈ ((cfg4.win 3).blk t).view.set ↔ ∀ a : Fin 2, win4_3.index t a * S5000x32.size a ≤ (i a).val
      ∧ (i a).val < win4_3.index t a * S5000x32.size a + S5000x32.size a := by
  show i ∈ ((View.whole main_v41).slice (win4_3.rect t)).set ↔ _
  rw [View.set_slice_whole, Rect.mem_set_unit]
  exact Iff.rfl

/-- The 20 blocks tile the result: row `r` lies in the block of point `r / 5000`. -/
theorem cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 32 ≤ (i 1).val ∧ (i 1).val < win4_3.index t (1 : Fin 2) * 32 + 32; omega

/-- After the region its result array is the step of the input arrays as the region found them. -/
theorem final (c : Dev nD) : (dat4 V c).arrAt 3 cfg4.N = projScale (n := 100000) (K := 64) (N := 32) (V c main_v40) (V c main_arg5) (V c main_v10) :=
  (dat4 V c).arrAt_eq_of_cover 3 _ (fun t _ => flushed_eq V c t) cover

end Cert.KernelIdeal.Region4

end
-- ==== Proof.Region5.lean ====
/-
  An aggregation's closing region: each row of the aggregated messages multiplied by its in-degree factor, plus the bias
  row, rectified.

  The grid has 20 points; point `t` reads rows `5000·t … 5000·t + 4999` of the aggregate and of the factor column, the whole
  bias row, and writes the same rows of the result.  An entry of `affineRelu` reads one entry of the aggregate, one of the
  column and one of the bias row, so what point `t` writes back is block `t` of `affineRelu` of the whole arrays; the 20
  blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region5

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x32 .f32) (x1 : FVec Ideal S5000x1 .f32) (x2 : FVec Ideal S1x32 .f32) :
    k5_pay1 x0 x1 x2 = affineRelu x0 x1 x2 := by
  unfold k5_pay1
  exact tile_affineRelu _ _ _ _ _ x0 x1 x2

/-- The index maps, decided over the 20 points: a window over row tiles has row-block index `t` at point `t` and
    column-block index 0; a window that is its whole array has block index (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Every row block is some point's. -/
theorem idx_onto : ∀ q0 : Fin 20, ∃ t : Fin cfg5.N, win5_3.index t = ![q0.val, 0] :=
  (by decide +kernel : ∀ q0 : Fin 20, ∃ t : Fin grid5.N, win5_3.index t = ![q0.val, 0])

/-- What point `t` writes back is block `t` of the step of the input arrays. -/
theorem flushed_eq (c : Dev nD) (t : Fin cfg5.N) :
    (dat5 V c).flushed 3 t = ((cfg5.win 3).blk t).view.read (Elt Ideal) (affineRelu (n := 100000) (N := 32) (V c main_v51) (V c main_v14) (V c main_v52)) := by
  show (cfg5.win 3).cut (grid5.coords t) ((dat5 V c).after 3 t) = _
  rw [after5_3]
  unfold out5_3
  rw [View.canon_unit_zero hz]
  simp only [View.ld_unit_zero (S := S5000x32) hz, View.ld_unit_zero (S := S5000x1) hz, View.ld_unit_zero (S := S1x32) hz]
  rw [pay_eq]
  obtain ⟨e0, e1, e2, e3, e4, e5, e6, e7⟩ := idx_facts t
  have htN : t.val < 20 := by have h := t.isLt; have hN : cfg5.N = 20 := N_5; omega
  funext j
  obtain ⟨p, q, rfl⟩ : ∃ (p : Fin 5000) (q : Fin 32), j = ix2 p q := ⟨j 0, j 1, eq_ix2 j⟩
  have hr : t.val * 5000 + p.val < 100000 := by have := p.isLt; omega
  show affineRelu (n := 5000) (N := 32) (iblk5 V c 0 t) (iblk5 V c 1 t) (iblk5 V c 2 t) (ix2 p q)
    = affineRelu (n := 100000) (N := 32) (V c main_v51) (V c main_v14) (V c main_v52) (((cfg5.win 3).blk t).view.emb (ix2 p q))
  have he : ((cfg5.win 3).blk t).view.emb (ix2 p q) = ix2 (⟨t.val * 5000 + p.val, hr⟩ : Fin 100000) q := by
    funext a; apply Fin.ext
    match a with
    | ⟨0, _⟩ => show win5_3.index t (0 : Fin 2) * 5000 + 1 * p.val = t.val * 5000 + p.val; omega
    | ⟨1, _⟩ => show win5_3.index t (1 : Fin 2) * 32 + 1 * q.val = q.val; omega
  rw [he]
  refine affineRelu_entry (n := 100000) (M := 5000) (N := 32) (V c main_v51) (iblk5 V c 0 t) (V c main_v14) (iblk5 V c 1 t)
    (V c main_v52) (iblk5 V c 2 t) p (⟨t.val * 5000 + p.val, hr⟩ : Fin 100000) q ?_ ?_ ?_
  · show V c main_v51 (((cfg5.win 0).blk t).view.emb (ix2 p q)) = V c main_v51 (ix2 (⟨t.val * 5000 + p.val, hr⟩ : Fin 100000) q)
    refine congrArg _ ?_
    funext a; apply Fin.ext
    match a with
    | ⟨0, _⟩ => show win5_0.index t (0 : Fin 2) * 5000 + 1 * p.val = t.val * 5000 + p.val; omega
    | ⟨1, _⟩ => show win5_0.index t (1 : Fin 2) * 32 + 1 * q.val = q.val; omega
  · show V c main_v14 (((cfg5.win 1).blk t).view.emb (ix2 p (0 : Fin 1))) = V c main_v14 (ix2 (⟨t.val * 5000 + p.val, hr⟩ : Fin 100000) (0 : Fin 1))
    refine congrArg _ ?_
    funext a; apply Fin.ext
    match a with
    | ⟨0, _⟩ => show win5_1.index t (0 : Fin 2) * 5000 + 1 * p.val = t.val * 5000 + p.val; omega
    | ⟨1, _⟩ => show win5_1.index t (1 : Fin 2) * 1 + 1 * 0 = 0; omega
  · show V c main_v52 (((cfg5.win 2).blk t).view.emb (ix2 (0 : Fin 1) q)) = V c main_v52 (ix2 (0 : Fin 1) q)
    refine congrArg _ ?_
    funext a; apply Fin.ext
    match a with
    | ⟨0, _⟩ => show win5_2.index t (0 : Fin 2) * 1 + 1 * 0 = 0; omega
    | ⟨1, _⟩ => show win5_2.index t (1 : Fin 2) * 32 + 1 * q.val = q.val; omega

/-- An index of the result is in point `t`'s block iff each coordinate is in the block's range on its axis. -/
theorem mem_blk (t : Fin cfg5.N) (i : S100000x32.Idx) :
    i ∈ ((cfg5.win 3).blk t).view.set ↔ ∀ a : Fin 2, win5_3.index t a * S5000x32.size a ≤ (i a).val
      ∧ (i a).val < win5_3.index t a * S5000x32.size a + S5000x32.size a := by
  show i ∈ ((View.whole main_v53).slice (win5_3.rect t)).set ↔ _
  rw [View.set_slice_whole, Rect.mem_set_unit]
  exact Iff.rfl

/-- The 20 blocks tile the result: row `r` lies in the block of point `r / 5000`. -/
theorem cover (i : S100000x32.Idx) :
    ∃ t : Fin cfg5.N, (cfg5.win 3).flush t = true ∧ i ∈ ((cfg5.win 3).blk t).view.set := by
  have hi0 : (i 0).val < 100000 := (i 0).isLt
  have hi1 : (i 1).val < 32 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 32 ≤ (i 1).val ∧ (i 1).val < win5_3.index t (1 : Fin 2) * 32 + 32; omega

/-- After the region its result array is the step of the input arrays as the region found them. -/
theorem final (c : Dev nD) : (dat5 V c).arrAt 3 cfg5.N = affineRelu (n := 100000) (N := 32) (V c main_v51) (V c main_v14) (V c main_v52) :=
  (dat5 V c).arrAt_eq_of_cover 3 _ (fun t _ => flushed_eq V c t) cover

end Cert.KernelIdeal.Region5

end
-- ==== Proof.Region6.lean ====
/-
  A projection region: the node array times a weight matrix, each row then multiplied by its out-degree factor.

  The grid has 20 points; point `t` reads rows `5000·t … 5000·t + 4999` of the node array and of the factor column, the whole
  weight matrix, and writes the same rows of the result.  An entry of `projScale` reads one row of the node array, one
  entry of the column and one column of the weights, so what point `t` writes back is block `t` of `projScale` of the
  whole arrays; the 20 blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region6

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x32 .f32) (x1 : FVec Ideal S32x4 .f32) (x2 : FVec Ideal S5000x1 .f32) :
    k6_pay1 x0 x1 x2 = projScale x0 x1 x2 := by
  unfold k6_pay1
  exact tile_projScale _ rfl _ _ _ _ x0 x1 x2

/-- The index maps, decided over the 20 points: a window over row tiles has row-block index `t` at point `t` and
    column-block index 0; a window that is its whole array has block index (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Every row block is some point's. -/
theorem idx_onto : ∀ q0 : Fin 20, ∃ t : Fin cfg6.N, win6_3.index t = ![q0.val, 0] :=
  (by decide +kernel : ∀ q0 : Fin 20, ∃ t : Fin grid6.N, win6_3.index t = ![q0.val, 0])

/-- What point `t` writes back is block `t` of the step of the input arrays. -/
theorem flushed_eq (c : Dev nD) (t : Fin cfg6.N) :
    (dat6 V c).flushed 3 t = ((cfg6.win 3).blk t).view.read (Elt Ideal) (projScale (n := 100000) (K := 32) (N := 4) (V c main_v53) (V c main_arg7) (V c main_v10)) := by
  show (cfg6.win 3).cut (grid6.coords t) ((dat6 V c).after 3 t) = _
  rw [after6_3]
  unfold out6_3
  rw [View.canon_unit_zero hz]
  simp only [View.ld_unit_zero (S := S5000x32) hz, View.ld_unit_zero (S := S32x4) hz, View.ld_unit_zero (S := S5000x1) hz, View.ld_unit_zero (S := S5000x4) hz]
  rw [pay_eq]
  obtain ⟨e0, e1, e2, e3, e4, e5, e6, e7⟩ := idx_facts t
  have htN : t.val < 20 := by have h := t.isLt; have hN : cfg6.N = 20 := N_6; omega
  funext j
  obtain ⟨p, q, rfl⟩ : ∃ (p : Fin 5000) (q : Fin 4), j = ix2 p q := ⟨j 0, j 1, eq_ix2 j⟩
  have hr : t.val * 5000 + p.val < 100000 := by have := p.isLt; omega
  show projScale (n := 5000) (K := 32) (N := 4) (iblk6 V c 0 t) (iblk6 V c 1 t) (iblk6 V c 2 t) (ix2 p q)
    = projScale (n := 100000) (K := 32) (N := 4) (V c main_v53) (V c main_arg7) (V c main_v10) (((cfg6.win 3).blk t).view.emb (ix2 p q))
  have he : ((cfg6.win 3).blk t).view.emb (ix2 p q) = ix2 (⟨t.val * 5000 + p.val, hr⟩ : Fin 100000) q := by
    funext a; apply Fin.ext
    match a with
    | ⟨0, _⟩ => show win6_3.index t (0 : Fin 2) * 5000 + 1 * p.val = t.val * 5000 + p.val; omega
    | ⟨1, _⟩ => show win6_3.index t (1 : Fin 2) * 4 + 1 * q.val = q.val; omega
  rw [he]
  refine projScale_entry (n := 100000) (M := 5000) (K := 32) (N := 4) (V c main_v53) (iblk6 V c 0 t) (V c main_arg7) (iblk6 V c 1 t)
    (V c main_v10) (iblk6 V c 2 t) p (⟨t.val * 5000 + p.val, hr⟩ : Fin 100000) q ?_ ?_ ?_
  · intro k
    show V c main_v53 (((cfg6.win 0).blk t).view.emb (ix2 p k)) = V c main_v53 (ix2 (⟨t.val * 5000 + p.val, hr⟩ : Fin 100000) k)
    refine congrArg _ ?_
    funext a; apply Fin.ext
    match a with
    | ⟨0, _⟩ => show win6_0.index t (0 : Fin 2) * 5000 + 1 * p.val = t.val * 5000 + p.val; omega
    | ⟨1, _⟩ => show win6_0.index t (1 : Fin 2) * 32 + 1 * k.val = k.val; omega
  · intro k
    show V c main_arg7 (((cfg6.win 1).blk t).view.emb (ix2 k q)) = V c main_arg7 (ix2 k q)
    refine congrArg _ ?_
    funext a; apply Fin.ext
    match a with
    | ⟨0, _⟩ => show win6_1.index t (0 : Fin 2) * 32 + 1 * k.val = k.val; omega
    | ⟨1, _⟩ => show win6_1.index t (1 : Fin 2) * 4 + 1 * q.val = q.val; omega
  · show V c main_v10 (((cfg6.win 2).blk t).view.emb (ix2 p (0 : Fin 1))) = V c main_v10 (ix2 (⟨t.val * 5000 + p.val, hr⟩ : Fin 100000) (0 : Fin 1))
    refine congrArg _ ?_
    funext a; apply Fin.ext
    match a with
    | ⟨0, _⟩ => show win6_2.index t (0 : Fin 2) * 5000 + 1 * p.val = t.val * 5000 + p.val; omega
    | ⟨1, _⟩ => show win6_2.index t (1 : Fin 2) * 1 + 1 * 0 = 0; omega

/-- An index of the result is in point `t`'s block iff each coordinate is in the block's range on its axis. -/
theorem mem_blk (t : Fin cfg6.N) (i : S100000x4.Idx) :
    i ∈ ((cfg6.win 3).blk t).view.set ↔ ∀ a : Fin 2, win6_3.index t a * S5000x4.size a ≤ (i a).val
      ∧ (i a).val < win6_3.index t a * S5000x4.size a + S5000x4.size a := by
  show i ∈ ((View.whole main_v54).slice (win6_3.rect t)).set ↔ _
  rw [View.set_slice_whole, Rect.mem_set_unit]
  exact Iff.rfl

/-- The 20 blocks tile the result: row `r` lies in the block of point `r / 5000`. -/
theorem cover (i : S100000x4.Idx) :
    ∃ t : Fin cfg6.N, (cfg6.win 3).flush t = true ∧ i ∈ ((cfg6.win 3).blk t).view.set := by
  have hi0 : (i 0).val < 100000 := (i 0).isLt
  have hi1 : (i 1).val < 4 := (i 1).isLt
  obtain ⟨t, ht⟩ := idx_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 4 ≤ (i 1).val ∧ (i 1).val < win6_3.index t (1 : Fin 2) * 4 + 4; omega

/-- After the region its result array is the step of the input arrays as the region found them. -/
theorem final (c : Dev nD) : (dat6 V c).arrAt 3 cfg6.N = projScale (n := 100000) (K := 32) (N := 4) (V c main_v53) (V c main_arg7) (V c main_v10) :=
  (dat6 V c).arrAt_eq_of_cover 3 _ (fun t _ => flushed_eq V c t) cover

end Cert.KernelIdeal.Region6

end
-- ==== Proof.Region7.lean ====
/-
  An aggregation's closing region: each row of the aggregated messages multiplied by its in-degree factor, plus the bias
  row.

  The grid has 20 points; point `t` reads rows `5000·t … 5000·t + 4999` of the aggregate and of the factor column, the whole
  bias row, and writes the same rows of the result.  An entry of `affineRows` reads one entry of the aggregate, one of the
  column and one of the bias row, so what point `t` writes back is block `t` of `affineRows` of the whole arrays; the 20
  blocks tile the result.
-/
import proofs.«125794_j62526133895431_1_alg».proof.Proof.Gen.KernelIdeal.Frame
import proofs.«125794_j62526133895431_1_alg».proof.Proof.LibGraphConv

set_option maxRecDepth 16384

noncomputable section

namespace Cert.KernelIdeal.Region7

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its tile is the step on the tile. -/
theorem pay_eq (x0 : FVec Ideal S5000x4 .f32) (x1 : FVec Ideal S5000x1 .f32) (x2 : FVec Ideal S1x4 .f32) :
    k7_pay1 x0 x1 x2 = affineRows x0 x1 x2 := by
  unfold k7_pay1
  exact tile_affineRows _ _ _ _ _ x0 x1 x2

/-- The index maps, decided over the 20 points: a window over row tiles has row-block index `t` at point `t` and
    column-block index 0; a window that is its whole array has block index (0, 0). -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Every row block is some point's. -/
theorem idx_onto : ∀ q0 : Fin 20, ∃ t : Fin cfg7.N, win7_3.index t = ![q0.val, 0] :=
  (by decide +kernel : ∀ q0 : Fin 20, ∃ t : Fin grid7.N, win7_3.index t = ![q0.val, 0])

/-- What point `t` writes back is block `t` of the step of the input arrays. -/
theorem flushed_eq (c : Dev nD) (t : Fin cfg7.N) :
    (dat7 V c).flushed 3 t = ((cfg7.win 3).blk t).view.read (Elt Ideal) (affineRows (n := 100000) (N := 4) (V c main_v64) (V c main_v14) (V c main_v65)) := by
  show (cfg7.win 3).cut (grid7.coords t) ((dat7 V c).after 3 t) = _
  rw [after7_3]
  unfold out7_3
  rw [View.canon_unit_zero hz]
  simp only [View.ld_unit_zero (S := S5000x4) hz, View.ld_unit_zero (S := S5000x1) hz, View.ld_unit_zero (S := S1x4) hz]
  rw [pay_eq]
  obtain ⟨e0, e1, e2, e3, e4, e5, e6, e7⟩ := idx_facts t
  have htN : t.val < 20 := by have h := t.isLt; have hN : cfg7.N = 20 := N_7; omega
  funext j
  obtain ⟨p, q, rfl⟩ : ∃ (p : Fin 5000) (q : Fin 4), j = ix2 p q := ⟨j 0, j 1, eq_ix2 j⟩
  have hr : t.val * 5000 + p.val < 100000 := by have := p.isLt; omega
  show affineRows (n := 5000) (N := 4) (iblk7 V c 0 t) (iblk7 V c 1 t) (iblk7 V c 2 t) (ix2 p q)
    = affineRows (n := 100000) (N := 4) (V c main_v64) (V c main_v14) (V c main_v65) (((cfg7.win 3).blk t).view.emb (ix2 p q))
  have he : ((cfg7.win 3).blk t).view.emb (ix2 p q) = ix2 (⟨t.val * 5000 + p.val, hr⟩ : Fin 100000) q := by
    funext a; apply Fin.ext
    match a with
    | ⟨0, _⟩ => show win7_3.index t (0 : Fin 2) * 5000 + 1 * p.val = t.val * 5000 + p.val; omega
    | ⟨1, _⟩ => show win7_3.index t (1 : Fin 2) * 4 + 1 * q.val = q.val; omega
  rw [he]
  refine affineRows_entry (n := 100000) (M := 5000) (N := 4) (V c main_v64) (iblk7 V c 0 t) (V c main_v14) (iblk7 V c 1 t)
    (V c main_v65) (iblk7 V c 2 t) p (⟨t.val * 5000 + p.val, hr⟩ : Fin 100000) q ?_ ?_ ?_
  · show V c main_v64 (((cfg7.win 0).blk t).view.emb (ix2 p q)) = V c main_v64 (ix2 (⟨t.val * 5000 + p.val, hr⟩ : Fin 100000) q)
    refine congrArg _ ?_
    funext a; apply Fin.ext
    match a with
    | ⟨0, _⟩ => show win7_0.index t (0 : Fin 2) * 5000 + 1 * p.val = t.val * 5000 + p.val; omega
    | ⟨1, _⟩ => show win7_0.index t (1 : Fin 2) * 4 + 1 * q.val = q.val; omega
  · show V c main_v14 (((cfg7.win 1).blk t).view.emb (ix2 p (0 : Fin 1))) = V c main_v14 (ix2 (⟨t.val * 5000 + p.val, hr⟩ : Fin 100000) (0 : Fin 1))
    refine congrArg _ ?_
    funext a; apply Fin.ext
    match a with
    | ⟨0, _⟩ => show win7_1.index t (0 : Fin 2) * 5000 + 1 * p.val = t.val * 5000 + p.val; omega
    | ⟨1, _⟩ => show win7_1.index t (1 : Fin 2) * 1 + 1 * 0 = 0; omega
  · show V c main_v65 (((cfg7.win 2).blk t).view.emb (ix2 (0 : Fin 1) q)) = V c main_v65 (ix2 (0 : Fin 1) q)
    refine congrArg _ ?_
    funext a; apply Fin.ext
    match a with
    | ⟨0, _⟩ => show win7_2.index t (0 : Fin 2) * 1 + 1 * 0 = 0; omega
    | ⟨1, _⟩ => show win7_2.index t (1 : Fin 2) * 4 + 1 * q.val = q.val; omega

/-- An index of the result is in point `t`'s block iff each coordinate is in the block's range on its axis. -/
theorem mem_blk (t : Fin cfg7.N) (i : S100000x4.Idx) :
    i ∈ ((cfg7.win 3).blk t).view.set ↔ ∀ a : Fin 2, win7_3.index t a * S5000x4.size a ≤ (i a).val
      ∧ (i a).val < win7_3.index t a * S5000x4.size a + S5000x4.size a := by
  show i ∈ ((View.whole main_v66).slice (win7_3.rect t)).set ↔ _
  rw [View.set_slice_whole, Rect.mem_set_unit]
  exact Iff.rfl

/-- The 20 blocks tile the result: row `r` lies in the block of point `r / 5000`. -/
theorem cover (i : S100000x4.Idx) :
    ∃ t : Fin cfg7.N, (cfg7.win 3).flush t = true ∧ i ∈ ((cfg7.win 3).blk t).view.set := by
  have hi0 : (i 0).val < 100000 := (i 0).isLt
  have hi1 : (i 1).val < 4 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 4 ≤ (i 1).val ∧ (i 1).val < win7_3.index t (1 : Fin 2) * 4 + 4; omega

/-- After the region its result array is the step of the input arrays as the region found them. -/
theorem final (c : Dev nD) : (dat7 V c).arrAt 3 cfg7.N = affineRows (n := 100000) (N := 4) (V c main_v64) (V c main_v14) (V c main_v65) :=
  (dat7 V c).arrAt_eq_of_cover 3 _ (fun t _ => flushed_eq V c t) cover

end Cert.KernelIdeal.Region7

end
-- ==== Proof.NetSpec.lean ====
/-
  The whole network as ONE function of its twelve argument arrays.

  Degrees are counted by scattering ones along the edge lists; the factor of a node is `rsqrt (max degree 1)`, as a
  column.  A layer gathers each edge's source row, scatters the rows into their destination nodes (`aggregate`), and
  applies its dense step; the first layer aggregates before its product (its input is narrower than its output), the
  other three project first.  The last step sums the nodes of each graph and divides by the graph's node count (at
  least 1).  Both programs compute this function: the kernel program with each dense step a region of row tiles,
  the reference with each dense step a few host operations.
-/
import proofs.«125794_j62526133895431_1_alg».proof.KernelIdeal
import proofs.«125794_j62526133895431_1_alg».proof.Proof.Gen.KernelIdeal
import proofs.«125794_j62526133895431_1_alg».proof.Proof.LibGraphConv

noncomputable section

namespace Cert.Net

open Idealize.ShloMosaic Cert.KernelIdeal Cert.KernelIdeal.Facts₀ Cert.GraphConv

/-- The float zero and one as rank-0 constants. -/
abbrev zero0 : FVec Ideal S_ .f32 := constant (F := Ideal) S_ .f32 0x00000000#32
abbrev one0 : FVec Ideal S_ .f32 := constant (F := Ideal) S_ .f32 0x3F800000#32

/-- How many edges list node `i` in the edge list `idx`: ones scattered along it. -/
def degree (idx : IVec S800000 32) : FVec Ideal S100000 .f32 :=
  Host.scatterAdd (F := Ideal) scatter_S100000_S800000x1_S800000_n_0_0_1 (broadcastInDim S100000 ![] bcast_S_S100000 zero0)
    (broadcastInDim S800000x1 ![0] bcast_S800000_S800000x1_0 idx) (broadcastInDim S800000 ![] bcast_S_S800000 one0)

/-- The degree factor `rsqrt (max degree 1)` of every node … -/
def factor (idx : IVec S800000 32) : FVec Ideal S100000 .f32 :=
  Host.rsqrt (F := Ideal) (maximumf (degree idx) (broadcastInDim S100000 ![] bcast_S_S100000 one0))

/-- … as a column. -/
def col (idx : IVec S800000 32) : FVec Ideal S100000x1 .f32 :=
  shapeCast S100000x1 (factor idx) shapeCasts_S100000_S100000x1

/-- The source indices as the gather reads them: a negative one counted from the end, then one per row. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

def dstIdx (dst : IVec S800000 32) : IVec S800000x1 32 := broadcastInDim S800000x1 ![0] bcast_S800000_S800000x1_0 dst

/-- Every edge's source row summed into its destination node, at 64, 32 and 4 columns. -/
def aggregate64 (y : FVec Ideal S100000x64 .f32) (src dst : IVec S800000 32) : FVec Ideal S100000x64 .f32 :=
  Host.scatterAdd (F := Ideal) scatter_S100000x64_S800000x1_S800000x64_1_0_0_1 (broadcastInDim S100000x64 ![] bcast_S_S100000x64 zero0)
    (dstIdx dst) (Host.gather gather_S100000x64_S800000x1_S800000x64_1_0_n_n_0_1_164 y (srcIdx src))
def aggregate32 (y : FVec Ideal S100000x32 .f32) (src dst : IVec S800000 32) : FVec Ideal S100000x32 .f32 :=
  Host.scatterAdd (F := Ideal) scatter_S100000x32_S800000x1_S800000x32_1_0_0_1 (broadcastInDim S100000x32 ![] bcast_S_S100000x32 zero0)
    (dstIdx dst) (Host.gather gather_S100000x32_S800000x1_S800000x32_1_0_n_n_0_1_132 y (srcIdx src))
def aggregate4 (y : FVec Ideal S100000x4 .f32) (src dst : IVec S800000 32) : FVec Ideal S100000x4 .f32 :=
  Host.scatterAdd (F := Ideal) scatter_S100000x4_S800000x1_S800000x4_1_0_0_1 (broadcastInDim S100000x4 ![] bcast_S_S100000x4 zero0)
    (dstIdx dst) (Host.gather gather_S100000x4_S800000x1_S800000x4_1_0_n_n_0_1_14 y (srcIdx src))

/-- The four layers. -/
def layer1 (x : FVec Ideal S100000x64 .f32) (w1 : FVec Ideal S64x128 .f32) (b1 : FVec Ideal S128 .f32) (src dst : IVec S800000 32) :
    FVec Ideal S100000x128 .f32 :=
  denseRelu (n := 100000) (K := 64) (N := 128) (aggregate64 (scaleRows (n := 100000) (N := 64) x (col src)) src dst) (col dst) w1
    (shapeCast S1x128 b1 shapeCasts_S128_S1x128)
def layer2 (h : FVec Ideal S100000x128 .f32) (w2 : FVec Ideal S128x64 .f32) (b2 : FVec Ideal S64 .f32) (src dst : IVec S800000 32) :
    FVec Ideal S100000x64 .f32 :=
  affineRelu (n := 100000) (N := 64) (aggregate64 (projScale (n := 100000) (K := 128) (N := 64) h w2 (col src)) src dst) (col dst)
    (shapeCast S1x64 b2 shapeCasts_S64_S1x64)
def layer3 (h : FVec Ideal S100000x64 .f32) (w3 : FVec Ideal S64x32 .f32) (b3 : FVec Ideal S32 .f32) (src dst : IVec S800000 32) :
    FVec Ideal S100000x32 .f32 :=
  affineRelu (n := 100000) (N := 32) (aggregate32 (projScale (n := 100000) (K := 64) (N := 32) h w3 (col src)) src dst) (col dst)
    (shapeCast S1x32 b3 shapeCasts_S32_S1x32)
def layer4 (h : FVec Ideal S100000x32 .f32) (w4 : FVec Ideal S32x4 .f32) (b4 : FVec Ideal S4 .f32) (src dst : IVec S800000 32) :
    FVec Ideal S100000x4 .f32 :=
  affineRows (n := 100000) (N := 4) (aggregate4 (projScale (n := 100000) (K := 32) (N := 4) h w4 (col src)) src dst) (col dst)
    (shapeCast S1x4 b4 shapeCasts_S4_S1x4)

/-- The mean of each graph's node rows: the rows summed per graph, divided by `max count 1`. -/
def meanNodes (h : FVec Ideal S100000x4 .f32) (gid : IVec S100000 32) : FVec Ideal S500x4 .f32 :=
  Host.divf (F := Ideal)
    (Host.scatterAdd (F := Ideal) scatter_S500x4_S100000x1_S100000x4_1_0_0_1 (broadcastInDim S500x4 ![] bcast_S_S500x4 zero0)
      (broadcastInDim S100000x1 ![0] bcast_S100000_S100000x1_0 gid) h)
    (broadcastInDim S500x4 ![0, 1] bcast_S500x1_S500x4_0_1 (broadcastInDim S500x1 ![0] bcast_S500_S500x1_0
      (maximumf (Host.scatterAdd (F := Ideal) scatter_S500_S100000x1_S100000_n_0_0_1 (broadcastInDim S500 ![] bcast_S_S500 zero0)
          (broadcastInDim S100000x1 ![0] bcast_S100000_S100000x1_0 gid) (broadcastInDim S100000 ![] bcast_S_S100000 one0))
        (broadcastInDim S500 ![] bcast_S_S500 one0))))

/-- The network. -/
def G (x : FVec Ideal S100000x64 .f32) (w1 : FVec Ideal S64x128 .f32) (b1 : FVec Ideal S128 .f32)
    (w2 : FVec Ideal S128x64 .f32) (b2 : FVec Ideal S64 .f32) (w3 : FVec Ideal S64x32 .f32) (b3 : FVec Ideal S32 .f32)
    (w4 : FVec Ideal S32x4 .f32) (b4 : FVec Ideal S4 .f32) (src dst : IVec S800000 32) (gid : IVec S100000 32) :
    FVec Ideal S500x4 .f32 :=
  meanNodes (layer4 (layer3 (layer2 (layer1 x w1 b1 src dst) w2 b2 src dst) w3 b3 src dst) w4 b4 src dst) gid

end Cert.Net

end
-- ==== Proof.KernelFold.lean ====
/-
  What the kernel program's fold leaves in the result buffer: the network of the launch arrays.

  Reading the fold backwards from the result: a buffer a host operation wrote holds the operation's value of its
  operands' contents one step earlier; a region's output array holds the region's dense step of its input arrays as the
  region found them (the region modules); a region's input array, and any buffer a segment does not touch, holds what
  it held before the segment.  Followed down to the launch memory this is the network `G` of the twelve argument arrays:
  the same operations in the same order, each dense step standing where its region ran.
-/
import proofs.«125794_j62526133895431_1_alg».proof.Proof.Gen.KernelIdeal.Frame
import proofs.«125794_j62526133895431_1_alg».proof.Proof.Region0
import proofs.«125794_j62526133895431_1_alg».proof.Proof.Region1
import proofs.«125794_j62526133895431_1_alg».proof.Proof.Region2
import proofs.«125794_j62526133895431_1_alg».proof.Proof.Region3
import proofs.«125794_j62526133895431_1_alg».proof.Proof.Region4
import proofs.«125794_j62526133895431_1_alg».proof.Proof.Region5
import proofs.«125794_j62526133895431_1_alg».proof.Proof.Region6
import proofs.«125794_j62526133895431_1_alg».proof.Proof.Region7
import proofs.«125794_j62526133895431_1_alg».proof.Proof.NetSpec

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.GraphConv

variable (m : (ℓ : Loc nD τ sig) → Buf (Elt Ideal) ℓ) (ρ : Dev nD → PrngReg) (c : Dev nD)

/-! ## A region's output array after the region: its dense step of the input arrays at the region's entry -/

theorem out0 : W2 m ρ c (Proc.devRef .tc main_v15)
    = scaleRows (n := 100000) (N := 64) (W1 m ρ c (Proc.devRef .tc main_arg0)) (W1 m ρ c (Proc.devRef .tc main_v10)) :=
  (W2_arr m ρ c 2).trans (Region0.final (V1 m ρ) c)
theorem out1 : W4 m ρ c (Proc.devRef .tc main_v27)
    = denseRelu (n := 100000) (K := 64) (N := 128) (W3 m ρ c (Proc.devRef .tc main_v25)) (W3 m ρ c (Proc.devRef .tc main_v14)) (W3 m ρ c (Proc.devRef .tc main_arg1)) (W3 m ρ c (Proc.devRef .tc main_v26)) :=
  (W4_arr m ρ c 4).trans (Region1.final (V3 m ρ) c)
theorem out2 : W5 m ρ c (Proc.devRef .tc main_v28)
    = projScale (n := 100000) (K := 128) (N := 64) (W4 m ρ c (Proc.devRef .tc main_v27)) (W4 m ρ c (Proc.devRef .tc main_arg3)) (W4 m ρ c (Proc.devRef .tc main_v10)) :=
  (W5_arr m ρ c 3).trans (Region2.final (V4 m ρ) c)
theorem out3 : W7 m ρ c (Proc.devRef .tc main_v40)
    = affineRelu (n := 100000) (N := 64) (W6 m ρ c (Proc.devRef .tc main_v38)) (W6 m ρ c (Proc.devRef .tc main_v14)) (W6 m ρ c (Proc.devRef .tc main_v39)) :=
  (W7_arr m ρ c 3).trans (Region3.final (V6 m ρ) c)
theorem out4 : W8 m ρ c (Proc.devRef .tc main_v41)
    = projScale (n := 100000) (K := 64) (N := 32) (W7 m ρ c (Proc.devRef .tc main_v40)) (W7 m ρ c (Proc.devRef .tc main_arg5)) (W7 m ρ c (Proc.devRef .tc main_v10)) :=
  (W8_arr m ρ c 3).trans (Region4.final (V7 m ρ) c)
theorem out5 : W10 m ρ c (Proc.devRef .tc main_v53)
    = affineRelu (n := 100000) (N := 32) (W9 m ρ c (Proc.devRef .tc main_v51)) (W9 m ρ c (Proc.devRef .tc main_v14)) (W9 m ρ c (Proc.devRef .tc main_v52)) :=
  (W10_arr m ρ c 3).trans (Region5.final (V9 m ρ) c)
theorem out6 : W11 m ρ c (Proc.devRef .tc main_v54)
    = projScale (n := 100000) (K := 32) (N := 4) (W10 m ρ c (Proc.devRef .tc main_v53)) (W10 m ρ c (Proc.devRef .tc main_arg7)) (W10 m ρ c (Proc.devRef .tc main_v10)) :=
  (W11_arr m ρ c 3).trans (Region6.final (V10 m ρ) c)
theorem out7 : W13 m ρ c (Proc.devRef .tc main_v66)
    = affineRows (n := 100000) (N := 4) (W12 m ρ c (Proc.devRef .tc main_v64)) (W12 m ρ c (Proc.devRef .tc main_v14)) (W12 m ρ c (Proc.devRef .tc main_v65)) :=
  (W13_arr m ρ c 3).trans (Region7.final (V12 m ρ) c)

/-! ## A region's input array that a later segment reads again keeps its contents through the region -/

theorem keep0_v10 : W2 m ρ c (Proc.devRef .tc main_v10) = W1 m ρ c (Proc.devRef .tc main_v10) :=
  (W2_arr m ρ c 1).trans (((dat0 (V1 m ρ) c).arrAt_in 1 rfl _).trans (A_eq0 (V1 m ρ) c 1))
theorem keep2_v10 : W5 m ρ c (Proc.devRef .tc main_v10) = W4 m ρ c (Proc.devRef .tc main_v10) :=
  (W5_arr m ρ c 2).trans (((dat2 (V4 m ρ) c).arrAt_in 2 rfl _).trans (A_eq2 (V4 m ρ) c 2))
theorem keep4_v10 : W8 m ρ c (Proc.devRef .tc main_v10) = W7 m ρ c (Proc.devRef .tc main_v10) :=
  (W8_arr m ρ c 2).trans (((dat4 (V7 m ρ) c).arrAt_in 2 rfl _).trans (A_eq4 (V7 m ρ) c 2))
theorem keep1_v14 : W4 m ρ c (Proc.devRef .tc main_v14) = W3 m ρ c (Proc.devRef .tc main_v14) :=
  (W4_arr m ρ c 1).trans (((dat1 (V3 m ρ) c).arrAt_in 1 rfl _).trans (A_eq1 (V3 m ρ) c 1))
theorem keep3_v14 : W7 m ρ c (Proc.devRef .tc main_v14) = W6 m ρ c (Proc.devRef .tc main_v14) :=
  (W7_arr m ρ c 1).trans (((dat3 (V6 m ρ) c).arrAt_in 1 rfl _).trans (A_eq3 (V6 m ρ) c 1))
theorem keep5_v14 : W10 m ρ c (Proc.devRef .tc main_v14) = W9 m ρ c (Proc.devRef .tc main_v14) :=
  (W10_arr m ρ c 1).trans (((dat5 (V9 m ρ) c).arrAt_in 1 rfl _).trans (A_eq5 (V9 m ρ) c 1))

/-! ## A buffer that is none of a region's arrays keeps its contents through the region -/

theorem skip7 {b : Ref sig .tc} (hb : ∀ w, Pipeline.arrRef spec7 w ≠ b) :
    W13 m ρ c (no_index (Proc.devRef .tc b)) = W12 m ρ c (Proc.devRef .tc b) := W13_of_ne m ρ c b hb
theorem skip6 {b : Ref sig .tc} (hb : ∀ w, Pipeline.arrRef spec6 w ≠ b) :
    W11 m ρ c (no_index (Proc.devRef .tc b)) = W10 m ρ c (Proc.devRef .tc b) := W11_of_ne m ρ c b hb
theorem skip5 {b : Ref sig .tc} (hb : ∀ w, Pipeline.arrRef spec5 w ≠ b) :
    W10 m ρ c (no_index (Proc.devRef .tc b)) = W9 m ρ c (Proc.devRef .tc b) := W10_of_ne m ρ c b hb
theorem skip4 {b : Ref sig .tc} (hb : ∀ w, Pipeline.arrRef spec4 w ≠ b) :
    W8 m ρ c (no_index (Proc.devRef .tc b)) = W7 m ρ c (Proc.devRef .tc b) := W8_of_ne m ρ c b hb
theorem skip3 {b : Ref sig .tc} (hb : ∀ w, Pipeline.arrRef spec3 w ≠ b) :
    W7 m ρ c (no_index (Proc.devRef .tc b)) = W6 m ρ c (Proc.devRef .tc b) := W7_of_ne m ρ c b hb
theorem skip2 {b : Ref sig .tc} (hb : ∀ w, Pipeline.arrRef spec2 w ≠ b) :
    W5 m ρ c (no_index (Proc.devRef .tc b)) = W4 m ρ c (Proc.devRef .tc b) := W5_of_ne m ρ c b hb
theorem skip1 {b : Ref sig .tc} (hb : ∀ w, Pipeline.arrRef spec1 w ≠ b) :
    W4 m ρ c (no_index (Proc.devRef .tc b)) = W3 m ρ c (Proc.devRef .tc b) := W4_of_ne m ρ c b hb
theorem skip0 {b : Ref sig .tc} (hb : ∀ w, Pipeline.arrRef spec0 w ≠ b) :
    W2 m ρ c (no_index (Proc.devRef .tc b)) = W1 m ρ c (Proc.devRef .tc b) := W2_of_ne m ρ c b hb

/-! ## The fold at the result buffer -/

set_option maxHeartbeats 4000000 in
/-- The result buffer ends at the network of the launch arrays. -/
theorem value : W14 m ρ c (Proc.devRef .tc main_v78)
    = Cert.Net.G (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11)) := by
  simp (disch := decide) only [W14, W12, W9, W6, W3, W1, W0, hostOps8, hostOps7, hostOps5, hostOps3, hostOps1, hostOps0,
    after_cons, after_nil,
    nullary_result', unary_result', binary_result', ternary_result', quaternary_result', reshape_result',
    nullary_result_ne', unary_result_ne', binary_result_ne', ternary_result_ne', quaternary_result_ne', reshape_result_ne',
    out0 m ρ c, out1 m ρ c, out2 m ρ c, out3 m ρ c, out4 m ρ c, out5 m ρ c, out6 m ρ c, out7 m ρ c,
    keep0_v10 m ρ c, keep2_v10 m ρ c, keep4_v10 m ρ c, keep1_v14 m ρ c, keep3_v14 m ρ c, keep5_v14 m ρ c,
    skip7 m ρ c, skip6 m ρ c, skip5 m ρ c, skip4 m ρ c, skip3 m ρ c, skip2 m ρ c, skip1 m ρ c, skip0 m ρ c]
  rfl

end Cert.KernelIdeal.Fold

end
-- ==== Proof.RefBridge.lean ====
/-
  The reference's result term is the network of its argument arrays.

  The reference spells every dense step with host operations: the degree factor as a vector broadcast to a column and
  then over the columns, the bias as a vector broadcast to a row and then over the rows, the products as `dot_general`,
  the rectifier as a maximum with a broadcast zero.  Each such stretch IS the step of the network's definition, at the
  factor cast to a column and the bias cast to a row (the `host_…` lemmas); everything else — the degree counts, the
  gathers and scatters along the edges, the mean over each graph — is the same operation in both.
-/
import proofs.«125794_j62526133895431_1_alg».proof.Proof.Gen.ReferenceIdeal.Run
import proofs.«125794_j62526133895431_1_alg».proof.Proof.NetSpec

set_option maxRecDepth 16384

noncomputable section

namespace Cert.ReferenceIdeal.Bridge

open Idealize.ShloMosaic Idealize.ShloMosaic.TcCoe Idealize.SL.Sem
open Cert.ReferenceIdeal Cert.ReferenceIdeal.Facts₀ Cert.GraphConv

variable (m : (ℓ : Loc nD τ sig) → Buf (Elt Ideal) ℓ) (c : Dev nD)

set_option maxHeartbeats 4000000 in
/-- The reference run's result term is `G` of the launch arrays. -/
theorem result_eq : Cert.ReferenceIdeal.Value.res_main_v107 (F := Ideal) m c
    = Cert.Net.G (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11)) := by
  unfold Cert.ReferenceIdeal.Value.res_main_v107 Cert.Net.G Cert.Net.layer4 Cert.Net.layer3 Cert.Net.layer2 Cert.Net.layer1 Cert.Net.col
  rw [← host_affineRows (n := 100000) (N := 4) bcast_S100000_S100000x1_0 bcast_S100000x1_S100000x4_0_1
      Cert.KernelIdeal.Facts₀.shapeCasts_S100000_S100000x1 bcast_S4_S1x4_1 bcast_S1x4_S100000x4_0_1 Cert.KernelIdeal.Facts₀.shapeCasts_S4_S1x4,
    ← host_affineRelu (n := 100000) (N := 32) bcast_S100000_S100000x1_0 bcast_S100000x1_S100000x32_0_1
      Cert.KernelIdeal.Facts₀.shapeCasts_S100000_S100000x1 bcast_S32_S1x32_1 bcast_S1x32_S100000x32_0_1 Cert.KernelIdeal.Facts₀.shapeCasts_S32_S1x32 bcast_S_S100000x32,
    ← host_affineRelu (n := 100000) (N := 64) bcast_S100000_S100000x1_0 bcast_S100000x1_S100000x64_0_1
      Cert.KernelIdeal.Facts₀.shapeCasts_S100000_S100000x1 bcast_S64_S1x64_1 bcast_S1x64_S100000x64_0_1 Cert.KernelIdeal.Facts₀.shapeCasts_S64_S1x64 bcast_S_S100000x64,
    ← host_projScale (n := 100000) (K := 32) (N := 4) dot_S100000x32_S32x4_S100000x4_1_0_0_1_n_n rfl bcast_S100000_S100000x1_0
      bcast_S100000x1_S100000x4_0_1 Cert.KernelIdeal.Facts₀.shapeCasts_S100000_S100000x1,
    ← host_projScale (n := 100000) (K := 64) (N := 32) dot_S100000x64_S64x32_S100000x32_1_0_0_1_n_n rfl bcast_S100000_S100000x1_0
      bcast_S100000x1_S100000x32_0_1 Cert.KernelIdeal.Facts₀.shapeCasts_S100000_S100000x1,
    ← host_projScale (n := 100000) (K := 128) (N := 64) dot_S100000x128_S128x64_S100000x64_1_0_0_1_n_n rfl bcast_S100000_S100000x1_0
      bcast_S100000x1_S100000x64_0_1 Cert.KernelIdeal.Facts₀.shapeCasts_S100000_S100000x1,
    ← host_denseRelu (n := 100000) (K := 64) (N := 128) dot_S100000x64_S64x128_S100000x128_1_0_0_1_n_n rfl bcast_S100000_S100000x1_0
      bcast_S100000x1_S100000x64_0_1 Cert.KernelIdeal.Facts₀.shapeCasts_S100000_S100000x1 bcast_S128_S1x128_1 bcast_S1x128_S100000x128_0_1
      Cert.KernelIdeal.Facts₀.shapeCasts_S128_S1x128 bcast_S_S100000x128,
    ← host_scaleRows (n := 100000) (N := 64) bcast_S100000_S100000x1_0 bcast_S100000x1_S100000x64_0_1
      Cert.KernelIdeal.Facts₀.shapeCasts_S100000_S100000x1]
  rfl

end Cert.ReferenceIdeal.Bridge

end
-- ==== Proof.lean ====
/-
  The certificate: the tiled kernel program and the plain reference compute the same network on the extended reals.

  The network is four graph-convolution layers with symmetric degree normalisation, rectified between layers, and a
  mean over the nodes of each graph (Proof/NetSpec.lean: `Cert.Net.G`, one function of the twelve argument arrays).  The
  kernel program runs every dense step — row scaling, the products with the weights, bias and rectifier — as a region of
  twenty row tiles; the reference runs them as host operations on whole arrays; gathers and scatters along the edges
  are host operations in both.
    • Each region's output array is its dense step of its whole input arrays (Proof/Region0 … Region7.lean), because an
      entry of a dense step reads one row only (Proof/LibGraphConv.lean); no term is moved across a sum, so no finiteness of
      the inputs is used.
    • Folding the kernel program's fourteen segments from the launch memory, its result buffer ends at `G` of the launch
      arrays (Proof/KernelRun.lean, Proof/KernelFold.lean).
    • The reference's run ends at its composed term, which is `G` of its launch arrays (Proof/RefBridge.lean).
  The three frames are the generated ones (the reference's: its run with the result dropped); the idealization rewrote
  nothing, so there is nothing to preserve.
-/
import proofs.«125794_j62526133895431_1_alg».proof.Defs
import proofs.«125794_j62526133895431_1_alg».proof.Proof.Gen.Kernel
import proofs.«125794_j62526133895431_1_alg».proof.Proof.Gen.Kernel.Frame
import proofs.«125794_j62526133895431_1_alg».proof.Proof.Gen.KernelIdeal
import proofs.«125794_j62526133895431_1_alg».proof.Proof.Gen.KernelIdeal.Frame
import proofs.«125794_j62526133895431_1_alg».proof.Proof.Gen.ReferenceIdeal
import proofs.«125794_j62526133895431_1_alg».proof.Proof.Gen.Pre_finite_inputs
import proofs.«125794_j62526133895431_1_alg».proof.Proof.Gen.ReferenceIdeal.Run
import proofs.«125794_j62526133895431_1_alg».proof.Proof.KernelRun
import proofs.«125794_j62526133895431_1_alg».proof.Proof.KernelFold
import proofs.«125794_j62526133895431_1_alg».proof.Proof.RefBridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the network of the argument arrays, which agree. -/
theorem algebraic : Cert.algebraic_KernelIdeal_ReferenceIdeal := by
  intro m ρ m' ρ' _ hagree
  refine ⟨fun c => Cert.Net.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Fold.value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Bridge.result_eq m' c, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
